-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x512 : Shape := ⟨3, ![8, 256, 512]⟩
abbrev S8x64x512 : Shape := ⟨3, ![8, 64, 512]⟩
abbrev S1024x1024 : Shape := ⟨2, ![1024, 1024]⟩
abbrev S1024 : Shape := ⟨1, ![1024]⟩
abbrev S1024x128 : Shape := ⟨2, ![1024, 128]⟩
abbrev S128 : Shape := ⟨1, ![128]⟩
abbrev S_ : Shape := ⟨0, ![]⟩

class Facts : Prop where
  bcast_S_S8x256x512 : S_.BroadcastsInDim S8x256x512 (![] : Fin 0 → Fin S8x256x512.rank)
  reducesTo_S8x256x512_S_d0_1_2 : S8x256x512.ReducesTo [0, 1, 2] S_
  h_S_ : 0 < S_.numel
  bcast_S_S8x64x512 : S_.BroadcastsInDim S8x64x512 (![] : Fin 0 → Fin S8x64x512.rank)
  reducesTo_S8x64x512_S_d0_1_2 : S8x64x512.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S1024x128 .f32) (main_arg5 : FVec F S128 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x128 .f32 := Host.absf main_arg4
  let main_cst_6 : FVec F S_ .f32 := constant S_ .f32 0x7F800000#32
  let main_v20 : FVec F S1024x128 .f32 := broadcastInDim S1024x128 ![] bcast_S_S1024x128 main_cst_6
  let main_v21 : IVec S1024x128 1 := cmpf .olt main_v19 main_v20
  let main_c_7 : IVec S_ 1 := constantI S_ 1 1#1
  let main_v22 : IVec S_ 1 := (fun x v => Host.reduce IntOp.andi x v reducesTo_S1024x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S8x256x512 .f32) (main_arg1 : FVec F S8x64x512 .f32) (main_arg2 : FVec F S1024x1024 .f32) (main_arg3 : FVec F S1024 .f32) (main_arg4 : FVec F S1024x128 .f32) (main_arg5 : FVec F S128 .f32) : IVec S_ 1 :=
  let main_v0 : FVec F S8x256x512 .f32 := Host.absf main_arg0
  let main_cst : FVec F S_ .f32 := constant S_ .f32 0x7F800000#32
  let main_v1 : FVec F S8x256x512 .f32 := broadcastInDim S8x256x512 ![] bcast_S_S8x256x512 main_cst
  let main_v2 : IVec S8x256x512 1 := cmpf .olt main_v0 main_v1
  let main_c : IVec S_ 1 := constantI S_ 1 1#1
  let main_v3 : IVec S_ 1 := (fun x v => Host.reduce IntOp.andi x v reducesTo_S8x256x512_S_d0_1_2 h_S_) main_v2 main_c
  let main_v4 : FVec F S8x64x512 .f32 := Host.absf main_arg1
  let main_cst_0 : FVec F S_ .f32 := constant S_ .f32 0x7F800000#32
  let main_v5 : FVec F S8x64x512 .f32 := broadcastInDim S8x64x512 ![] bcast_S_S8x64x512 main_cst_0
  let main_v6 : IVec S8x64x512 1 := cmpf .olt main_v4 main_v5
  let main_c_1 : IVec S_ 1 := constantI S_ 1 1#1
  let main_v7 : IVec S_ 1 := (fun x v => Host.reduce IntOp.andi x v reducesTo_S8x64x512_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S8x256x512 : Shape := ⟨3, ![8, 256, 512]⟩
abbrev S8x64x512 : Shape := ⟨3, ![8, 64, 512]⟩
abbrev S1024x1024 : Shape := ⟨2, ![1024, 1024]⟩
abbrev S1024 : Shape := ⟨1, ![1024]⟩
abbrev S1024x128 : Shape := ⟨2, ![1024, 128]⟩
abbrev S128 : Shape := ⟨1, ![128]⟩
abbrev S512x1024 : Shape := ⟨2, ![512, 1024]⟩
abbrev S2048x512 : Shape := ⟨2, ![2048, 512]⟩
abbrev S512x512 : Shape := ⟨2, ![512, 512]⟩
abbrev S2048x1024 : Shape := ⟨2, ![2048, 1024]⟩
abbrev S256x512 : Shape := ⟨2, ![256, 512]⟩
abbrev S256x1024 : Shape := ⟨2, ![256, 1024]⟩
abbrev S8x256x1024 : Shape := ⟨3, ![8, 256, 1024]⟩
abbrev S8x64x1024 : Shape := ⟨3, ![8, 64, 1024]⟩
abbrev S1x1024 : Shape := ⟨2, ![1, 1024]⟩
abbrev S1x128 : Shape := ⟨2, ![1, 128]⟩
abbrev S8x256x64x128 : Shape := ⟨4, ![8, 256, 64, 128]⟩
abbrev S1x32x1024 : Shape := ⟨3, ![1, 32, 1024]⟩
abbrev S1x64x1024 : Shape := ⟨3, ![1, 64, 1024]⟩
abbrev S1x32x64x128 : Shape := ⟨4, ![1, 32, 64, 128]⟩
abbrev S32x1024 : Shape := ⟨2, ![32, 1024]⟩
abbrev S64x1024 : Shape := ⟨2, ![64, 1024]⟩
abbrev S32x1x1024 : Shape := ⟨3, ![32, 1, 1024]⟩
abbrev S32x64x1024 : Shape := ⟨3, ![32, 64, 1024]⟩
abbrev S1x1x1024 : Shape := ⟨3, ![1, 1, 1024]⟩
abbrev S2048x128 : Shape := ⟨2, ![2048, 128]⟩
abbrev S32x64x128 : Shape := ⟨3, ![32, 64, 128]⟩

abbrev nBuf : Space → Nat
  | .hbm => 17
  | .vmem => 19
  | .smem => 0
  | _ => 0

abbrev bufTy : (tb : Table) → Fin (tcTables nBuf tb) → BufTy
  | .hbm, ⟨0, _⟩ => ⟨S8x256x512, .f32⟩
  | .hbm, ⟨1, _⟩ => ⟨S8x64x512, .f32⟩
  | .hbm, ⟨2, _⟩ => ⟨S1024x1024, .f32⟩
  | .hbm, ⟨3, _⟩ => ⟨S1024, .f32⟩
  | .hbm, ⟨4, _⟩ => ⟨S1024x128, .f32⟩
  | .hbm, ⟨5, _⟩ => ⟨S128, .f32⟩
  | .hbm, ⟨6, _⟩ => ⟨S512x1024, .f32⟩
  | .hbm, ⟨7, _⟩ => ⟨S512x1024, .f32⟩
  | .hbm, ⟨8, _⟩ => ⟨S2048x512, .f32⟩
  | .hbm, ⟨9, _⟩ => ⟨S512x512, .f32⟩
  | .hbm, ⟨10, _⟩ => ⟨S2048x1024, .f32⟩
  | .hbm, ⟨11, _⟩ => ⟨S8x256x1024, .f32⟩
  | .hbm, ⟨12, _⟩ => ⟨S512x1024, .f32⟩
  | .hbm, ⟨13, _⟩ => ⟨S8x64x1024, .f32⟩
  | .hbm, ⟨14, _⟩ => ⟨S1x1024, .f32⟩
  | .hbm, ⟨15, _⟩ => ⟨S1x128, .f32⟩
  | .hbm, ⟨16, _⟩ => ⟨S8x256x64x128, .f32⟩
  | .local _ .vmem, ⟨0, _⟩ => ⟨S256x512, .f32⟩
  | .local _ .vmem, ⟨1, _⟩ => ⟨S256x512, .f32⟩
  | .local _ .vmem, ⟨2, _⟩ => ⟨S512x1024, .f32⟩
  | .local _ .vmem, ⟨3, _⟩ => ⟨S256x1024, .f32⟩
  | .local _ .vmem, ⟨4, _⟩ => ⟨S256x1024, .f32⟩
  | .local _ .vmem, ⟨5, _⟩ => ⟨S256x512, .f32⟩
  | .local _ .vmem, ⟨6, _⟩ => ⟨S256x512, .f32⟩
  | .local _ .vmem, ⟨7, _⟩ => ⟨S512x1024, .f32⟩
  | .local _ .vmem, ⟨8, _⟩ => ⟨S256x1024, .f32⟩
  | .local _ .vmem, ⟨9, _⟩ => ⟨S256x1024, .f32⟩
  | .local _ .vmem, ⟨10, _⟩ => ⟨S1x32x1024, .f32⟩
  | .local _ .vmem, ⟨11, _⟩ => ⟨S1x32x1024, .f32⟩
  | .local _ .vmem, ⟨12, _⟩ => ⟨S1x64x1024, .f32⟩
  | .local _ .vmem, ⟨13, _⟩ => ⟨S1x64x1024, .f32⟩
  | .local _ .vmem, ⟨14, _⟩ => ⟨S1x1024, .f32⟩
  | .local _ .vmem, ⟨15, _⟩ => ⟨S1024x128, .f32⟩
  | .local _ .vmem, ⟨16, _⟩ => ⟨S1x128, .f32⟩
  | .local _ .vmem, ⟨17, _⟩ => ⟨S1x32x64x128, .f32⟩
  | .local _ .vmem, ⟨18, _⟩ => ⟨S1x32x64x128, .f32⟩
  | _, _ => ⟨S8x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg5_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem5_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x32x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x64x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1024x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x32x64x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

class Facts₀ : Prop where
  slices_S1024x1024_S512x1024_0_0 : S1024x1024.Slices ![0, 0] S512x1024
  slices_S1024x1024_S512x1024_512_0 : S1024x1024.Slices ![512, 0] S512x1024
  shapeCasts_S8x256x512_S2048x512 : S8x256x512.ShapeCasts S2048x512
  shapeCasts_S8x64x512_S512x512 : S8x64x512.ShapeCasts S512x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S256x1024_S256x1024_0_0 : ∀ a, (![0, 0] : Fin 2 → Nat) a + S256x1024.size a ≤ S256x1024.size a
  h_S256x1024 : 0 < S256x1024.numel
  shapeCasts_S2048x1024_S8x256x1024 : S2048x1024.ShapeCasts S8x256x1024
  shapeCasts_S512x1024_S8x64x1024 : S512x1024.ShapeCasts S8x64x1024
  shapeCasts_S1024_S1x1024 : S1024.ShapeCasts S1x1024
  shapeCasts_S128_S1x128 : S128.ShapeCasts S1x128
  inb_S1x32x1024_S1x32x1024_0_0_0 : ∀ a, (![0, 0, 0] : Fin 3 → Nat) a + S1x32x1024.size a ≤ S1x32x1024.size a
  h_S1x32x1024 : 0 < S1x32x1024.numel
  shapeCasts_S1x32x1024_S32x1024 : S1x32x1024.ShapeCasts S32x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S32x1024_S32x1x1024 : S32x1024.ShapeCasts S32x1x1024
  shapeCasts_S64x1024_S1x64x1024 : S64x1024.ShapeCasts S1x64x1024
  broadcasts_S32x1x1024_S32x64x1024 : S32x1x1024.Broadcasts S32x64x1024
  broadcasts_S1x64x1024_S32x64x1024 : S1x64x1024.Broadcasts S32x64x1024
  shapeCasts_S1x1024_S1x1x1024 : S1x1024.ShapeCasts S1x1x1024
  broadcasts_S1x1x1024_S32x64x1024 : S1x1x1024.Broadcasts S32x64x1024
  shapeCasts_S32x64x1024_S2048x1024 : S32x64x1024.ShapeCasts S2048x1024
  inb_S1024x128_S1024x128_0_0 : ∀ a, (![0, 0] : Fin 2 → Nat) a + S1024x128.size a ≤ S1024x128.size a
  h_S1024x128 : 0 < S1024x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  shapeCasts_S2048x128_S32x64x128 : S2048x128.ShapeCasts S32x64x128
  inb_S1x32x64x128_S1x32x64x128_0_0_0_0 : ∀ a, (![0, 0, 0, 0] : Fin 4 → Nat) a + S1x32x64x128.size a ≤ S1x32x64x128.size a
  h_S1x32x64x128 : 0 < S1x32x64x128.numel
  shapeCasts_S1x32x64x128_S32x64x128 : S1x32x64x128.ShapeCasts S32x64x128
  shapeCasts_S32x64x128_S1x32x64x128 : S32x64x128.ShapeCasts S1x32x64x128
  dot_S256x512_S512x1024_S256x1024_1_0_0_1_n_n_wf : DotDims.WF S256x512 S512x1024 S256x1024 [1] [0] [0] [1] [] []
  dot_S2048x1024_S1024x128_S2048x128_1_0_0_1_n_n_wf : DotDims.WF S2048x1024 S1024x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S2048x512.size a
  hwx0_0 : ∀ i : grid0.Coords, EltTy.bits .f32 = 32 ∨ (Rect.block (s := S2048x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S2048x1024.size a
  hwx0_2 : ∀ i : grid0.Coords, EltTy.bits .f32 = 32 ∨ (Rect.block (s := S2048x1024) S256x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S512x512.size a
  hwx1_0 : ∀ i : grid1.Coords, EltTy.bits .f32 = 32 ∨ (Rect.block (s := S512x512) S256x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S512x1024.size a
  hwx1_1 : ∀ i : grid1.Coords, EltTy.bits .f32 = 32 ∨ (Rect.block (s := S512x1024) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S512x1024.size a
  hwx1_2 : ∀ i : grid1.Coords, EltTy.bits .f32 = 32 ∨ (Rect.block (s := S512x1024) S256x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x32x1024.size a ≤ S8x256x1024.size a
  hwx2_0 : ∀ i : grid2.Coords, EltTy.bits .f32 = 32 ∨ (Rect.block (s := S8x256x1024) S1x32x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x64x1024.size a ≤ S8x64x1024.size a
  hwx2_1 : ∀ i : grid2.Coords, EltTy.bits .f32 = 32 ∨ (Rect.block (s := S8x64x1024) S1x64x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x128.size a ≤ S1024x128.size a
  hwx2_3 : ∀ i : grid2.Coords, EltTy.bits .f32 = 32 ∨ (Rect.block (s := S1024x128) S1024x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x32x64x128.size a ≤ S8x256x64x128.size a
  hwx2_5 : ∀ i : grid2.Coords, EltTy.bits .f32 = 32 ∨ (Rect.block (s := S8x256x64x128) S1x32x64x128.size (cc2_transform_5 i) (hinb2_5 i)).WholeWords (EltTy.packing .f32)

variable [Facts₀]

def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf

abbrev win0_0 : Pipeline.Window sig grid0 :=
  Pipeline.Window.ofSpec (Memref.whole main_v2) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S256x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v5) S1x32x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1x64x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S1024x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v10) S1x32x64x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S8x256x512 : Shape := ⟨3, ![8, 256, 512]⟩
abbrev S8x64x512 : Shape := ⟨3, ![8, 64, 512]⟩
abbrev S1024x1024 : Shape := ⟨2, ![1024, 1024]⟩
abbrev S1024 : Shape := ⟨1, ![1024]⟩
abbrev S1024x128 : Shape := ⟨2, ![1024, 128]⟩
abbrev S128 : Shape := ⟨1, ![128]⟩
abbrev S512x1024 : Shape := ⟨2, ![512, 1024]⟩
abbrev S8x256x1024 : Shape := ⟨3, ![8, 256, 1024]⟩
abbrev S8x64x1024 : Shape := ⟨3, ![8, 64, 1024]⟩
abbrev S8x256x1x1024 : Shape := ⟨4, ![8, 256, 1, 1024]⟩
abbrev S8x1x64x1024 : Shape := ⟨4, ![8, 1, 64, 1024]⟩
abbrev S8x256x64x1024 : Shape := ⟨4, ![8, 256, 64, 1024]⟩
abbrev S1x1x1x1024 : Shape := ⟨4, ![1, 1, 1, 1024]⟩
abbrev S8x256x64x128 : Shape := ⟨4, ![8, 256, 64, 128]⟩
abbrev S1x1x1x128 : Shape := ⟨4, ![1, 1, 1, 128]⟩

abbrev nBuf : Space → Nat
  | .hbm => 23
  | .vmem => 0
  | .smem => 0
  | _ => 0

abbrev bufTy : (tb : Table) → Fin (tcTables nBuf tb) → BufTy
  | .hbm, ⟨0, _⟩ => ⟨S8x256x512, .f32⟩
  | .hbm, ⟨1, _⟩ => ⟨S8x64x512, .f32⟩
  | .hbm, ⟨2, _⟩ => ⟨S1024x1024, .f32⟩
  | .hbm, ⟨3, _⟩ => ⟨S1024, .f32⟩
  | .hbm, ⟨4, _⟩ => ⟨S1024x128, .f32⟩
  | .hbm, ⟨5, _⟩ => ⟨S128, .f32⟩
  | .hbm, ⟨6, _⟩ => ⟨S512x1024, .f32⟩
  | .hbm, ⟨7, _⟩ => ⟨S512x1024, .f32⟩
  | .hbm, ⟨8, _⟩ => ⟨S8x256x1024, .f32⟩
  | .hbm, ⟨9, _⟩ => ⟨S8x64x1024, .f32⟩
  | .hbm, ⟨10, _⟩ => ⟨S8x256x1x1024, .f32⟩
  | .hbm, ⟨11, _⟩ => ⟨S8x1x64x1024, .f32⟩
  | .hbm, ⟨12, _⟩ => ⟨S8x256x64x1024, .f32⟩
  | .hbm, ⟨13, _⟩ => ⟨S8x256x64x1024, .f32⟩
  | .hbm, ⟨14, _⟩ => ⟨S8x256x64x1024, .f32⟩
  | .hbm, ⟨15, _⟩ => ⟨S1x1x1x1024, .f32⟩
  | .hbm, ⟨16, _⟩ => ⟨S8x256x64x1024, .f32⟩
  | .hbm, ⟨17, _⟩ => ⟨S8x256x64x1024, .f32⟩
  | .hbm, ⟨18, _⟩ => ⟨S8x256x64x1024, .f32⟩
  | .hbm, ⟨19, _⟩ => ⟨S8x256x64x128, .f32⟩
  | .hbm, ⟨20, _⟩ => ⟨S1x1x1x128, .f32⟩
  | .hbm, ⟨21, _⟩ => ⟨S8x256x64x128, .f32⟩
  | .hbm, ⟨22, _⟩ => ⟨S8x256x64x128, .f32⟩
  | _, _ => ⟨S8x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  slices_S1024x1024_S512x1024_0_0 : S1024x1024.Slices ![0, 0] S512x1024
  slices_S1024x1024_S512x1024_512_0 : S1024x1024.Slices ![512, 0] S512x1024
  bcast_S8x256x1024_S8x256x1x1024_0_1_3 : S8x256x1024.BroadcastsInDim S8x256x1x1024 (![0, 1, 3] : Fin 3 → Fin S8x256x1x1024.rank)
  bcast_S8x64x1024_S8x1x64x1024_0_2_3 : S8x64x1024.BroadcastsInDim S8x1x64x1024 (![0, 2, 3] : Fin 3 → Fin S8x1x64x1024.rank)
  bcast_S8x256x1x1024_S8x256x64x1024_0_1_2_3 : S8x256x1x1024.BroadcastsInDim S8x256x64x1024 (![0, 1, 2, 3] : Fin 4 → Fin S8x256x64x1024.rank)
  bcast_S8x1x64x1024_S8x256x64x1024_0_1_2_3 : S8x1x64x1024.BroadcastsInDim S8x256x64x1024 (![0, 1, 2, 3] : Fin 4 → Fin S8x256x64x1024.rank)
  bcast_S1024_S1x1x1x1024_3 : S1024.BroadcastsInDim S1x1x1x1024 (![3] : Fin 1 → Fin S1x1x1x1024.rank)
  bcast_S1x1x1x1024_S8x256x64x1024_0_1_2_3 : S1x1x1x1024.BroadcastsInDim S8x256x64x1024 (![0, 1, 2, 3] : Fin 4 → Fin S8x256x64x1024.rank)
  bcast_S128_S1x1x1x128_3 : S128.BroadcastsInDim S1x1x1x128 (![3] : Fin 1 → Fin S1x1x1x128.rank)
  bcast_S1x1x1x128_S8x256x64x128_0_1_2_3 : S1x1x1x128.BroadcastsInDim S8x256x64x128 (![0, 1, 2, 3] : Fin 4 → Fin S8x256x64x128.rank)
  dot_S8x256x512_S512x1024_S8x256x1024_2_0_01_1_n_n_wf : DotDims.WF S8x256x512 S512x1024 S8x256x1024 [2] [0] [0, 1] [1] [] []
  dot_S8x64x512_S512x1024_S8x64x1024_2_0_01_1_n_n_wf : DotDims.WF S8x64x512 S512x1024 S8x64x1024 [2] [0] [0, 1] [1] [] []
  dot_S8x256x64x1024_S1024x128_S8x256x64x128_3_0_012_1_n_n_wf : DotDims.WF S8x256x64x1024 S1024x128 S8x256x64x128 [3] [0] [0, 1, 2] [1] [] []

variable [Facts₀]

def dot_S8x256x512_S512x1024_S8x256x1024_2_0_01_1_n_n : DotDims S8x256x512 S512x1024 S8x256x1024 where
  lhsContracting := [2]
  rhsContracting := [0]
  lhsNonContracting := [0, 1]
  rhsNonContracting := [1]
  lhsBatch := []
  rhsBatch := []
  wf := dot_S8x256x512_S512x1024_S8x256x1024_2_0_01_1_n_n_wf
def dot_S8x64x512_S512x1024_S8x64x1024_2_0_01_1_n_n : DotDims S8x64x512 S512x1024 S8x64x1024 where
  lhsContracting := [2]
  rhsContracting := [0]
  lhsNonContracting := [0, 1]
  rhsNonContracting := [1]
  lhsBatch := []
  rhsBatch := []
  wf := dot_S8x64x512_S512x1024_S8x64x1024_2_0_01_1_n_n_wf
def dot_S8x256x64x1024_S1024x128_S8x256x64x128_3_0_012_1_n_n : DotDims S8x256x64x1024 S1024x128 S8x256x64x128 where
  lhsContracting := [3]
  rhsContracting := [0]
  lhsNonContracting := [0, 1, 2]
  rhsNonContracting := [1]
  lhsBatch := []
  rhsBatch := []
  wf := dot_S8x256x64x1024_S1024x128_S8x256x64x128_3_0_012_1_n_n_wf

class Facts : Prop extends Facts₀ where

variable [Facts]
-- ==== Proof.KernelRun.lean ====
/-
  The idealized kernel's whole run, with its result array named. The program is three kernel launches among
  stretches of host operations; its run threads the contents of every buffer through six segments. Here the run is
  stated with the result buffer read at the end of that thread (the contents `Gen.W6` after the third launch), beside the
  six argument arrays, which no segment writes.
-/
import proofs.«129630_j14001593385645_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds what the
    thread of buffer contents has at it after the last launch, and each argument array is as launched. -/
theorem run_named : θ_run defs (onTc (τ := τ) (main (F := F))) ⟨m, fun _ => 0, ρ⟩ (fun r => ∀ c : Dev nD,
      r.2.mem ((c.tc : Thread nD τ).loc main_v10) = W6 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v10 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

/-- The result buffer after the last launch is that launch's output array after all its write-backs. -/
theorem W6_result (c : Dev nD) :
    W6 m ρ c (Proc.devRef .tc main_v10) = (dat2 (V5 m ρ) c).arrAt 5 cfg2.N :=
  W6_arr m ρ c 5

end Cert.KernelIdeal.Whole

end
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.LibDense.lean ====
/-
  General lemmas: a matrix product of a rank-two array with a weight matrix, a bias row added to every row, and the
  cut at zero, each as ONE function of its operands at any number of rows — in the spelling a vector unit gives them
  (a product accumulated into a zero splat, a one-row array broadcast down the rows, a maximum against a splat zero)
  and in the spelling a host program gives them (a general dot, a vector broadcast in two steps, a maximum against a
  broadcast scalar). Over the extended reals a change of float format is the identity. None mentions a program.
-/
import proofs.«129630_j14001593385645_1_alg».proof.Proof.LibIndex

noncomputable section

namespace Cert.DenseLib

open Idealize.ShloMosaic Idealize.ShloMosaic.ValueIdx Cert.LayoutLib

/-- The product of an `[M, K]` array with a `[K, N]` matrix: entry `(p, q)` is the sum over `k` of `X (p, k) · W (k, q)`. -/
def mm {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (n0 := M) (i 0) k) * W (ix2 k (n1 := N) (i 1))

/-- A bias vector laid along every row of an `[M, N]` array. -/
def rows {M N : ℕ} (b : Fin N → EReal) : (⟨2, ![M, N]⟩ : Shape).Idx → EReal := fun i => b (i 1)

/-- The cut at zero, entry by entry. -/
def relu {s : Shape} (X : s.Idx → EReal) : s.Idx → EReal := fun i => max (X i) 0

/-- The entrywise sum. -/
def plus {s : Shape} (X Y : s.Idx → EReal) : s.Idx → EReal := fun i => X i + Y i

theorem mm_apply {M K N : ℕ} (X : (⟨2, ![M, K]⟩ : Shape).Idx → EReal) (W : (⟨2, ![K, N]⟩ : Shape).Idx → EReal)
    (p : Fin M) (q : Fin N) : mm X W (ix2 p q) = ∑ k : Fin K, X (ix2 p k) * W (ix2 k q) := rfl

/-- A product's row `p` depends on row `p` of the left operand only: two arrays, of any heights, that agree on a
    row of each give products that agree on those rows. -/
theorem mm_row {M M' K N : ℕ} (X : (⟨2, ![M, K]⟩ : Shape).Idx → EReal) (X' : (⟨2, ![M', K]⟩ : Shape).Idx → EReal)
    (W : (⟨2, ![K, N]⟩ : Shape).Idx → EReal) (p : Fin M) (p' : Fin M')
    (h : ∀ k, X (ix2 p k) = X' (ix2 p' k)) (q : Fin N) : mm X W (ix2 p q) = mm X' W (ix2 p' q) := by
  rw [mm_apply, mm_apply]
  exact Finset.sum_congr rfl fun k _ => by rw [h k]

/-! ## The vector unit's spellings -/

/-- A change of float format is the identity on the extended reals. -/
theorem truncf_eq {s : Shape} {φ ψ : FTy} (X : FVec Ideal s φ) (h : ψ.bits < φ.bits) : (truncf ψ X h : FVec Ideal s ψ) = X := rfl

/-- A product accumulated into the zero splat is the product. -/
theorem matmul_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    matmul D none L R (constant ⟨2, ![M, N]⟩ .f32 0x00000000#32) = mm L R := by
  funext i
  obtain ⟨p, q, rfl⟩ : ∃ (p : Fin M) (q : Fin N), i = ix2 p q := ⟨i 0, i 1, eq_ix2 i⟩
  exact (Ideal.matmul_constant_zero_apply D none L R (ix2 p q)).trans (dot_plain_sum D hD L R p q)

/-- A one-row array broadcast down the rows lays its row along every row. -/
theorem broadcastTo_eq_rows {M N : ℕ} (v : FVec Ideal ⟨2, ![1, N]⟩ .f32) (h : (⟨2, ![1, N]⟩ : Shape).Broadcasts ⟨2, ![M, N]⟩) :
    broadcastTo ⟨2, ![M, N]⟩ v h = rows (M := M) fun c => v (ix2 (0 : Fin 1) c) := by
  funext i
  obtain ⟨p, q, rfl⟩ : ∃ (p : Fin M) (q : Fin N), i = ix2 p q := ⟨i 0, i 1, eq_ix2 i⟩
  exact broadcastTo_1b_ab_apply v h p q

/-- The maximum against a splat zero is the cut at zero. -/
theorem maximumf_splat_zero {s : Shape} (X : FVec Ideal s .f32) :
    maximumf X (broadcast s (Scalar.ofBits (F := Ideal) .f32 0x00000000#32)) = relu X := by
  funext i
  show max (X i) (Ideal.ofBits .f32 0x00000000#32) = max (X i) 0
  rw [Ideal.ofBits_zero_f32]

/-- The vector sum is the entrywise sum. -/
theorem addf_eq_plus {s : Shape} (X Y : FVec Ideal s .f32) : addf X Y = plus X Y := rfl

/-! ## The host's spellings -/

/-- The host's general dot with one contracted axis is the product. -/
theorem dotGeneral_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    Host.dotGeneral D none L R = mm L R := by
  funext i
  obtain ⟨p, q, rfl⟩ : ∃ (p : Fin M) (q : Fin N), i = ix2 p q := ⟨i 0, i 1, eq_ix2 i⟩
  simp only [Host.dotGeneral]
  rw [Ideal.dotGeneral_apply]
  exact dot_plain_sum D hD L R p q

/-- A vector broadcast to one row and then down the rows lays the vector along every row. -/
theorem broadcastInDim_eq_rows {M N : ℕ} (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    broadcastInDim ⟨2, ![M, N]⟩ ![0, 1] h2 (broadcastInDim ⟨2, ![1, N]⟩ ![1] h1 b) = rows (M := M) fun c => b (ix1 c) := by
  funext i
  obtain ⟨p, q, rfl⟩ : ∃ (p : Fin M) (q : Fin N), i = ix2 p q := ⟨i 0, i 1, eq_ix2 i⟩
  rw [broadcastInDim_row_apply, broadcastInDim_vecRow_apply]
  rfl

/-- The maximum against a broadcast scalar zero is the cut at zero. -/
theorem maximumf_bcast_zero {s : Shape} (X : FVec Ideal s .f32)
    (h : (⟨0, ![]⟩ : Shape).BroadcastsInDim s (![] : Fin 0 → Fin s.rank)) :
    maximumf X (broadcastInDim s ![] h (constant (F := Ideal) ⟨0, ![]⟩ .f32 0x00000000#32)) = relu X := by
  funext i
  show max (X i) (broadcastInDim s ![] h (constant (F := Ideal) ⟨0, ![]⟩ .f32 0x00000000#32) i) = max (X i) 0
  rw [broadcastInDim_scalar_apply]
  show max (X i) (Ideal.ofBits .f32 0x00000000#32) = max (X i) 0
  rw [Ideal.ofBits_zero_f32]

end Cert.DenseLib

end
-- ==== Proof.LibRowBlocks.lean ====
/-
  A dense layer of a graph network on the extended reals, as whole-array functions at any number of rows: the
  product with a weight matrix after a bias row is added and the result cut at zero (`layer`), the bias alone
  (`biased`), and the product followed by a bias (`affine`). Row `p` of each depends only on row `p` of the
  array it is applied to: so a block of consecutive rows of the result is the same function of that block of rows,
  which is what lets a result computed block by block be read as one function of the whole array.
-/
import proofs.«129630_j14001593385645_1_alg».proof.Proof.LibDense

noncomputable section

namespace Cert.RowBlocks

open Idealize.ShloMosaic Idealize.ShloMosaic.ValueIdx Cert.LayoutLib Cert.DenseLib

/-- `relu (A + b) · W`: the bias `b` laid along every row of `A`, the cut at zero, then the product with `W`. -/
def layer {M K N : ℕ} (A : (⟨2, ![M, K]⟩ : Shape).Idx → EReal) (b : Fin K → EReal) (W : (⟨2, ![K, N]⟩ : Shape).Idx → EReal) :
    (⟨2, ![M, N]⟩ : Shape).Idx → EReal := mm (relu (plus A (rows b))) W

/-- `A + b`: the bias laid along every row. -/
def biased {M N : ℕ} (A : (⟨2, ![M, N]⟩ : Shape).Idx → EReal) (b : Fin N → EReal) : (⟨2, ![M, N]⟩ : Shape).Idx → EReal :=
  plus A (rows b)

/-- `P · W + b`. -/
def affine {M K N : ℕ} (P : (⟨2, ![M, K]⟩ : Shape).Idx → EReal) (W : (⟨2, ![K, N]⟩ : Shape).Idx → EReal) (b : Fin N → EReal) :
    (⟨2, ![M, N]⟩ : Shape).Idx → EReal := plus (mm P W) (rows b)

/-- An entry of a product is determined by its row of the left operand: if row `j 0` of `X'` is row `i 0` of `X`, the
    weights agree and the columns `j 1`, `i 1` are the same, the entries of the two products are equal. -/
theorem mm_eq_of_row {M M' K N : ℕ} (X' : (⟨2, ![M', K]⟩ : Shape).Idx → EReal) (W' : (⟨2, ![K, N]⟩ : Shape).Idx → EReal)
    (X : (⟨2, ![M, K]⟩ : Shape).Idx → EReal) (W : (⟨2, ![K, N]⟩ : Shape).Idx → EReal)
    (j : (⟨2, ![M', N]⟩ : Shape).Idx) (i : (⟨2, ![M, N]⟩ : Shape).Idx)
    (hw : W' = W) (hq : (j 1).val = (i 1).val) (hx : ∀ k : Fin K, X' (ix2 (n0 := M') (j 0) k) = X (ix2 (n0 := M) (i 0) k)) :
    mm X' W' j = mm X W i := by
  subst hw
  show ∑ k : Fin K, X' (ix2 (n0 := M') (j 0) k) * W' (ix2 k (n1 := N) (j 1)) = ∑ k : Fin K, X (ix2 (n0 := M) (i 0) k) * W' (ix2 k (n1 := N) (i 1))
  refine Finset.sum_congr rfl fun k _ => ?_
  have e : (ix2 k (n1 := N) (j 1)) = ix2 k (n1 := N) (i 1) := congrArg (ix2 k) (Fin.ext hq)
  rw [hx k, e]

/-- The same for a layer: the bias and the cut act entry by entry, so row `p` of `relu (A + b)` is determined by row `p` of `A`. -/
theorem layer_eq_of_row {M M' K N : ℕ} (A' : (⟨2, ![M', K]⟩ : Shape).Idx → EReal) (b' : Fin K → EReal) (W' : (⟨2, ![K, N]⟩ : Shape).Idx → EReal)
    (A : (⟨2, ![M, K]⟩ : Shape).Idx → EReal) (b : Fin K → EReal) (W : (⟨2, ![K, N]⟩ : Shape).Idx → EReal)
    (j : (⟨2, ![M', N]⟩ : Shape).Idx) (i : (⟨2, ![M, N]⟩ : Shape).Idx)
    (hb : b' = b) (hw : W' = W) (hq : (j 1).val = (i 1).val) (hx : ∀ k : Fin K, A' (ix2 (n0 := M') (j 0) k) = A (ix2 (n0 := M) (i 0) k)) :
    layer A' b' W' j = layer A b W i := by
  subst hb
  refine mm_eq_of_row _ _ _ _ j i hw hq fun k => ?_
  show max (A' (ix2 (n0 := M') (j 0) k) + b' ((ix2 (n0 := M') (j 0) k) 1)) 0 = max (A (ix2 (n0 := M) (i 0) k) + b' ((ix2 (n0 := M) (i 0) k) 1)) 0
  rw [hx k]
  rfl

/-- An entry of `A + b` is the entry of `A` plus the bias of its column. -/
theorem biased_eq_of_entry {M M' N : ℕ} (A' : (⟨2, ![M', N]⟩ : Shape).Idx → EReal) (b' : Fin N → EReal)
    (A : (⟨2, ![M, N]⟩ : Shape).Idx → EReal) (b : Fin N → EReal)
    (j : (⟨2, ![M', N]⟩ : Shape).Idx) (i : (⟨2, ![M, N]⟩ : Shape).Idx)
    (hb : b' = b) (hq : (j 1).val = (i 1).val) (hx : A' j = A i) : biased A' b' j = biased A b i := by
  subst hb
  show A' j + b' (j 1) = A i + b' (i 1)
  have e : (j 1 : Fin N) = (i 1 : Fin N) := Fin.ext hq
  rw [hx, e]

/-- A vector `[b]` recast as one row `[1, b]` reads, at `(u, c)`, the vector at `c`. -/
theorem shapeCast_vecRow_apply {α : Type} {b : ℕ} (x : (⟨1, ![b]⟩ : Shape).Idx → α) (h : (⟨1, ![b]⟩ : Shape).ShapeCasts ⟨2, ![1, b]⟩)
    (u : Fin 1) (c : Fin b) : shapeCast ⟨2, ![1, b]⟩ x h (ix2 u c) = x (ix1 c) :=
  shapeCast_apply x h _ _ (by
    have hu : u.val = 0 := by omega
    rw [Shape.rowMajor_val_two, Shape.rowMajor_val_one]
    show c.val = u.val * b + c.val
    rw [hu]; omega)

end Cert.RowBlocks

end
-- ==== Proof.Projections.lean ====
/-
  The two projection launches. Each multiplies a tall array by a weight matrix, 256 rows at a grid point, the whole
  weight matrix resident. Over the extended reals the rounding of both operands to a shorter float format is the
  identity and the product accumulates into zero, so a point's result is the plain product of its row block with the
  weights; row `r` of a product depends only on row `r` of the left operand, so the blocks the points write back are
  the blocks of ONE product of the two whole arrays, and the blocks tile the output.
-/
import proofs.«129630_j14001593385645_1_alg».proof.Proof.Gen.KernelIdeal.Frame
import proofs.«129630_j14001593385645_1_alg».proof.Proof.LibRowBlocks
import Idealize.ShloMosaic.Lib.Pipeline.Value

noncomputable section

namespace Cert.KernelIdeal.Proj0

open Cert.KernelIdeal Cert.KernelIdeal.Gen Idealize.ShloMosaic Idealize.ShloMosaic.TcCoe Idealize.SL.Sem
open Idealize.ShloMosaic.ValueIdx Cert.DenseLib Cert.RowBlocks
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's one stored value is the product of its two loaded blocks: the format changes are the identity
    on the extended reals, the accumulator is the zero splat. -/
theorem pay_eq (x0 : Vec Ideal S256x512 .f32) (x1 : Vec Ideal S512x1024 .f32) : k0_pay1 x0 x1 = mm x0 x1 := by
  unfold k0_pay1
  dsimp only
  rw [shapeCast_self, shapeCast_self]
  exact matmul_eq_mm _ rfl _ _

/-- The printed index maps over the grid: the row block of the left operand moves with the output's, the weight
    block stays, and the output's column block is the only one. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every row block of the output is some point's. -/
theorem idx_onto : ∀ q : Fin 8, ∃ t : Fin cfg0.N, win0_2.index t (0 : Fin 2) = q.val :=
  (by decide +kernel : ∀ q : Fin 8, ∃ t : Fin grid0.N, win0_2.index t (0 : Fin 2) = q.val)

/-- What point `t` writes back is block `t` of the product of the two whole arrays the launch finds: row `r` of a
    product depends on row `r` of the left operand only, and the block's rows are the array's rows `256 t … 256 t + 255`. -/
theorem flushed_eq (c : Dev nD) (t : Fin cfg0.N) :
    (dat0 V c).flushed 2 t = ((cfg0.win 2).blk t).view.read (Elt Ideal) (mm (V c main_v2) (V c main_v0)) := by
  show (cfg0.win 2).cut (grid0.coords t) ((dat0 V c).after 2 t) = _
  rw [after0_2]
  unfold out0_2
  rw [View.canon_unit_zero hz]
  simp only [View.ld_unit_zero (S := S256x512) hz, View.ld_unit_zero (S := S512x1024) hz]
  rw [pay_eq]
  obtain ⟨e0, e1, e2, e3, e4⟩ := idx_facts t
  funext j
  show mm (iblk0 V c 0 t) (iblk0 V c 1 t) j = mm (V c main_v2) (V c main_v0) (((cfg0.win 2).blk t).view.emb j)
  refine mm_eq_of_row _ _ _ _ j _ ?_ ?_ fun k => ?_
  · funext y
    show V c main_v0 (((cfg0.win 1).blk t).view.emb y) = V c main_v0 y
    refine congrArg _ (funext fun a => Fin.ext ?_)
    match a with
    | ⟨0, _⟩ => show win0_1.index t (0 : Fin 2) * 512 + 1 * (y 0).val = (y 0).val; omega
    | ⟨1, _⟩ => show win0_1.index t (1 : Fin 2) * 1024 + 1 * (y 1).val = (y 1).val; omega
  · show (j 1).val = win0_2.index t (1 : Fin 2) * 1024 + 1 * (j 1).val
    omega
  · show V c main_v2 (((cfg0.win 0).blk t).view.emb (ix2 (j 0) k)) = V c main_v2 (ix2 ((((cfg0.win 2).blk t).view.emb j) 0) k)
    refine congrArg _ (funext fun a => Fin.ext ?_)
    match a with
    | ⟨0, _⟩ => show win0_0.index t (0 : Fin 2) * 256 + 1 * (j 0).val = win0_2.index t (0 : Fin 2) * 256 + 1 * (j 0).val; omega
    | ⟨1, _⟩ => show win0_0.index t (1 : Fin 2) * 512 + 1 * k.val = k.val; omega

/-- An index of the output array is in point `t`'s block iff each coordinate is in the block's range on its axis. -/
theorem mem_blk (t : Fin cfg0.N) (i : S2048x1024.Idx) :
    i ∈ ((cfg0.win 2).blk t).view.set ↔ ∀ a : Fin 2, win0_2.index t a * S256x1024.size a ≤ (i a).val ∧ (i a).val < win0_2.index t a * S256x1024.size a + S256x1024.size a := by
  show i ∈ ((View.whole main_v4).slice (win0_2.rect t)).set ↔ _
  rw [View.set_slice_whole, Rect.mem_set_unit]
  exact Iff.rfl

/-- Every row of the output array is in the block of the point `row / 256`. -/
theorem cover (i : S2048x1024.Idx) : ∃ t : Fin cfg0.N, (cfg0.win 2).flush t = true ∧ i ∈ ((cfg0.win 2).blk t).view.set := by
  have hi0 : (i 0).val < 2048 := (i 0).isLt
  have hi1 : (i 1).val < 1024 := (i 1).isLt
  obtain ⟨t, ht⟩ := idx_onto ⟨(i 0).val / 256, by omega⟩
  have q0 : win0_2.index t (0 : Fin 2) = (i 0).val / 256 := ht
  obtain ⟨e0, e1, e2, e3, e4⟩ := idx_facts t
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 1024 ≤ (i 1).val ∧ (i 1).val < win0_2.index t (1 : Fin 2) * 1024 + 1024; omega

/-- After all its write-backs the launch's output array is the product of the two arrays it read. -/
theorem final (c : Dev nD) : (dat0 V c).arrAt 2 cfg0.N = mm (V c main_v2) (V c main_v0) :=
  (dat0 V c).arrAt_eq_of_cover 2 _ (fun t _ => flushed_eq V c t) cover

end Cert.KernelIdeal.Proj0

namespace Cert.KernelIdeal.Proj1

open Cert.KernelIdeal Cert.KernelIdeal.Gen Idealize.ShloMosaic Idealize.ShloMosaic.TcCoe Idealize.SL.Sem
open Idealize.ShloMosaic.ValueIdx Cert.DenseLib Cert.RowBlocks
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's one stored value is the product of its two loaded blocks: the format changes are the identity
    on the extended reals, the accumulator is the zero splat. -/
theorem pay_eq (x0 : Vec Ideal S256x512 .f32) (x1 : Vec Ideal S512x1024 .f32) : k1_pay1 x0 x1 = mm x0 x1 := by
  unfold k1_pay1
  dsimp only
  rw [shapeCast_self, shapeCast_self]
  exact matmul_eq_mm _ rfl _ _

/-- The printed index maps over the grid: the row block of the left operand moves with the output's, the weight
    block stays, and the output's column block is the only one. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0 :=
  (by decide +kernel : ∀ t : Fin grid1.N, _)

/-- Every row block of the output is some point's. -/
theorem idx_onto : ∀ q : Fin 2, ∃ t : Fin cfg1.N, win1_2.index t (0 : Fin 2) = q.val :=
  (by decide +kernel : ∀ q : Fin 2, ∃ t : Fin grid1.N, win1_2.index t (0 : Fin 2) = q.val)

/-- What point `t` writes back is block `t` of the product of the two whole arrays the launch finds: row `r` of a
    product depends on row `r` of the left operand only, and the block's rows are the array's rows `256 t … 256 t + 255`. -/
theorem flushed_eq (c : Dev nD) (t : Fin cfg1.N) :
    (dat1 V c).flushed 2 t = ((cfg1.win 2).blk t).view.read (Elt Ideal) (mm (V c main_v3) (V c main_v1)) := by
  show (cfg1.win 2).cut (grid1.coords t) ((dat1 V c).after 2 t) = _
  rw [after1_2]
  unfold out1_2
  rw [View.canon_unit_zero hz]
  simp only [View.ld_unit_zero (S := S256x512) hz, View.ld_unit_zero (S := S512x1024) hz]
  rw [pay_eq]
  obtain ⟨e0, e1, e2, e3, e4⟩ := idx_facts t
  funext j
  show mm (iblk1 V c 0 t) (iblk1 V c 1 t) j = mm (V c main_v3) (V c main_v1) (((cfg1.win 2).blk t).view.emb j)
  refine mm_eq_of_row _ _ _ _ j _ ?_ ?_ fun k => ?_
  · funext y
    show V c main_v1 (((cfg1.win 1).blk t).view.emb y) = V c main_v1 y
    refine congrArg _ (funext fun a => Fin.ext ?_)
    match a with
    | ⟨0, _⟩ => show win1_1.index t (0 : Fin 2) * 512 + 1 * (y 0).val = (y 0).val; omega
    | ⟨1, _⟩ => show win1_1.index t (1 : Fin 2) * 1024 + 1 * (y 1).val = (y 1).val; omega
  · show (j 1).val = win1_2.index t (1 : Fin 2) * 1024 + 1 * (j 1).val
    omega
  · show V c main_v3 (((cfg1.win 0).blk t).view.emb (ix2 (j 0) k)) = V c main_v3 (ix2 ((((cfg1.win 2).blk t).view.emb j) 0) k)
    refine congrArg _ (funext fun a => Fin.ext ?_)
    match a with
    | ⟨0, _⟩ => show win1_0.index t (0 : Fin 2) * 256 + 1 * (j 0).val = win1_2.index t (0 : Fin 2) * 256 + 1 * (j 0).val; omega
    | ⟨1, _⟩ => show win1_0.index t (1 : Fin 2) * 512 + 1 * k.val = k.val; omega

/-- An index of the output array is in point `t`'s block iff each coordinate is in the block's range on its axis. -/
theorem mem_blk (t : Fin cfg1.N) (i : S512x1024.Idx) :
    i ∈ ((cfg1.win 2).blk t).view.set ↔ ∀ a : Fin 2, win1_2.index t a * S256x1024.size a ≤ (i a).val ∧ (i a).val < win1_2.index t a * S256x1024.size a + S256x1024.size a := by
  show i ∈ ((View.whole main_v6).slice (win1_2.rect t)).set ↔ _
  rw [View.set_slice_whole, Rect.mem_set_unit]
  exact Iff.rfl

/-- Every row of the output array is in the block of the point `row / 256`. -/
theorem cover (i : S512x1024.Idx) : ∃ t : Fin cfg1.N, (cfg1.win 2).flush t = true ∧ i ∈ ((cfg1.win 2).blk t).view.set := by
  have hi0 : (i 0).val < 512 := (i 0).isLt
  have hi1 : (i 1).val < 1024 := (i 1).isLt
  obtain ⟨t, ht⟩ := idx_onto ⟨(i 0).val / 256, by omega⟩
  have q0 : win1_2.index t (0 : Fin 2) = (i 0).val / 256 := ht
  obtain ⟨e0, e1, e2, e3, e4⟩ := idx_facts t
  refine ⟨t, flush1_2 t, ?_⟩
  rw [mem_blk]
  intro a
  match a with
  | ⟨0, _⟩ => show win1_2.index t (0 : Fin 2) * 256 ≤ (i 0).val ∧ (i 0).val < win1_2.index t (0 : Fin 2) * 256 + 256; omega
  | ⟨1, _⟩ => show win1_2.index t (1 : Fin 2) * 1024 ≤ (i 1).val ∧ (i 1).val < win1_2.index t (1 : Fin 2) * 1024 + 1024; omega

/-- After all its write-backs the launch's output array is the product of the two arrays it read. -/
theorem final (c : Dev nD) : (dat1 V c).arrAt 2 cfg1.N = mm (V c main_v3) (V c main_v1) :=
  (dat1 V c).arrAt_eq_of_cover 2 _ (fun t _ => flushed_eq V c t) cover

end Cert.KernelIdeal.Proj1

end
-- ==== Proof.LibFlatten.lean ====
/-
  General lemmas: a rank-three array `[a, b, c]` recast to `[N, c]` with its two leading axes merged, and back, read at an
  index: row `p · b + s` of the merged array is row `(p, s)` of the rank-three one. None mentions a program.
-/
import Idealize.ShloMosaic.Lib.ValueIdx
import Idealize.ShloMosaic.Lib.Pipeline.Value

noncomputable section

namespace Cert.FlattenLib

open Idealize.ShloMosaic Idealize.ShloMosaic.ValueIdx

variable {α : Type}

/-- Merging the leading axes: the recast array at `(r, k)`, `r = p · b + s`, is the array at `(p, s, k)`. -/
theorem shapeCast_merge_apply {a b c N : ℕ} (x : (⟨3, ![a, b, c]⟩ : Shape).Idx → α)
    (h : (⟨3, ![a, b, c]⟩ : Shape).ShapeCasts ⟨2, ![N, c]⟩) (p : Fin a) (s : Fin b) (k : Fin c) (r : Fin N)
    (hr : r.val = p.val * b + s.val) : shapeCast ⟨2, ![N, c]⟩ x h (ix2 r k) = x (ix3 p s k) :=
  shapeCast_apply x h _ _ (by
    rw [Shape.rowMajor_val_three, Shape.rowMajor_val_two]
    show (p.val * b + s.val) * c + k.val = r.val * c + k.val
    rw [hr])

/-- Splitting the leading axis: the recast array at `(p, s, k)` is the array at `(r, k)`, `r = p · b + s`. -/
theorem shapeCast_split_apply {a b c N : ℕ} (y : (⟨2, ![N, c]⟩ : Shape).Idx → α)
    (h : (⟨2, ![N, c]⟩ : Shape).ShapeCasts ⟨3, ![a, b, c]⟩) (p : Fin a) (s : Fin b) (k : Fin c) (r : Fin N)
    (hr : r.val = p.val * b + s.val) : shapeCast ⟨3, ![a, b, c]⟩ y h (ix3 p s k) = y (ix2 r k) :=
  shapeCast_apply y h _ _ (by
    rw [Shape.rowMajor_val_two, Shape.rowMajor_val_three]
    show r.val * c + k.val = (p.val * b + s.val) * c + k.val
    rw [hr])

end Cert.FlattenLib

end
-- ==== Proof.LibOuterSum.lean ====
/-
  General lemmas: rank-three layout operations read at an index — a matrix `[a, c]` recast with a unit middle axis
  `[a, 1, c]`, and the three broadcasts to `[a, b, c]` that an outer sum of two matrices plus a row uses: along the middle
  axis from `[a, 1, c]`, along the leading axis from `[1, b, c]`, along both from `[1, 1, c]`. None mentions a program.
-/
import Idealize.ShloMosaic.Lib.ValueIdx
import Idealize.ShloMosaic.Lib.Pipeline.Value

noncomputable section

namespace Cert.OuterLib

open Idealize.ShloMosaic Idealize.ShloMosaic.ValueIdx

variable {α : Type}

/-- A matrix `[a, c]` recast to `[a, 1, c]` reads, at `(p, u, k)`, the matrix at `(p, k)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_three, Shape.rowMajor_val_two]
    show p.val * c + k.val = (p.val * 1 + u.val) * c + k.val
    rw [hu, Nat.mul_one, Nat.add_zero])

/-- `[a, 1, c]` broadcast along its middle axis to `[a, b, c]` reads, at `(p, s, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (s : Fin b) (k : Fin c) :
    broadcastTo ⟨3, ![a, b, c]⟩ v h (ix3 p s k) = v (ix3 p (0 : Fin 1) k) := by
  refine broadcastTo_apply v h (ix3 p s k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- `[1, b, c]` broadcast along its leading axis to `[a, b, c]` reads, at `(p, s, k)`, the operand at `(0, s, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (s : Fin b) (k : Fin c) :
    broadcastTo ⟨3, ![a, b, c]⟩ v h (ix3 p s k) = v (ix3 (0 : Fin 1) s k) := by
  refine broadcastTo_apply v h (ix3 p s k) (ix3 (0 : Fin 1) s k) fun ax => ?_
  match ax with
  | ⟨0, _⟩ => rfl
  | ⟨1, _⟩ =>
    show s.val = if b = 1 then 0 else s.val
    split
    · have := s.isLt; omega
    · rfl
  | ⟨2, _⟩ =>
    show k.val = if c = 1 then 0 else k.val
    split
    · have := k.isLt; omega
    · rfl

/-- `[1, 1, c]` broadcast along both leading axes to `[a, b, c]` reads, at `(p, s, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (k : Fin c) :
    broadcastTo ⟨3, ![a, b, c]⟩ v h (ix3 p s k) = v (ix3 (0 : Fin 1) (0 : Fin 1) k) := by
  refine broadcastTo_apply v h (ix3 p s k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.OuterLib

end
-- ==== Proof.FusedBody.lean ====
/-
  The fused launch's body as arithmetic. At a grid point it holds 32 encoder rows, the 64 decoder rows of one batch
  entry, the first bias as one row, the second weight matrix and the second bias as one row. It adds every encoder row
  to every decoder row and to the bias (three broadcasts to `[32, 64, 1024]`), applies tanh, lays the `32 · 64` rows out
  as one `[2048, 1024]` matrix, multiplies by the weights into a zero accumulator, adds the bias row and lays the
  result out as `[1, 32, 64, 128]`. Read at an entry `(·, p, s, o)` over the extended reals — where the changes of float
  format are the identity — this is `(Σ_h tanh ((x0 (0, p, h) + x1 (0, s, h)) + x2 (0, h)) · x3 (h, o)) + x4 (0, o)`:
  row `p · 64 + s` of the matrix is the pair `(p, s)`.
-/
import proofs.«129630_j14001593385645_1_alg».proof.Proof.Gen.KernelIdeal.Skeleton
import proofs.«129630_j14001593385645_1_alg».proof.Proof.LibDense
import proofs.«129630_j14001593385645_1_alg».proof.Proof.LibFlatten
import proofs.«129630_j14001593385645_1_alg».proof.Proof.LibOuterSum
import Idealize.ShloMosaic.Lib.ValueLayout

noncomputable section

namespace Cert.KernelIdeal.FusedBody

open Cert.KernelIdeal Cert.KernelIdeal.Gen Idealize.ShloMosaic Idealize.ShloMosaic.ValueIdx
open Cert.DenseLib Cert.FlattenLib Cert.OuterLib

/-- The vector unit's tanh is the extended reals' tanh, entry by entry. -/
theorem tanh_apply {s : Shape} {φ : FTy} (a : FVec Ideal s φ) (i : s.Idx) : (tanh a : FVec Ideal s φ) i = Ideal.tanh (a i) := rfl

/-- The stored value at an entry. -/
theorem pay_apply (x0 : Vec Ideal S1x32x1024 .f32) (x1 : Vec Ideal S1x64x1024 .f32) (x2 : Vec Ideal S1x1024 .f32)
    (x3 : Vec Ideal S1024x128 .f32) (x4 : Vec Ideal S1x128 .f32) (u : Fin 1) (p : Fin 32) (s : Fin 64) (o : Fin 128) :
    k2_pay1 x0 x1 x2 x3 x4 (ix4 u p s o)
      = (∑ h : Fin 1024, Ideal.tanh ((x0 (ix3 (0 : Fin 1) p h) + x1 (ix3 (0 : Fin 1) s h)) + x2 (ix2 (0 : Fin 1) h)) * x3 (ix2 h o))
        + x4 (ix2 (0 : Fin 1) o) := by
  have hr : (⟨p.val * 64 + s.val, by have := p.isLt; have := s.isLt; omega⟩ : Fin 2048).val = p.val * 64 + s.val := rfl
  unfold k2_pay1
  refine (shapeCast_abc_1abc_apply _ _ u p s o).trans ?_
  refine (shapeCast_split_apply _ _ p s o _ hr).trans ?_
  refine (addf_apply _ _ _).trans ?_
  refine congrArg₂ (· + ·) ?_ ?_
  · refine (congrFun (matmul_eq_mm dot_S2048x1024_S1024x128_S2048x128_1_0_0_1_n_n rfl _ _) _).trans ?_
    refine (mm_apply _ _ _ o).trans (Finset.sum_congr rfl fun h _ => ?_)
    refine congrArg₂ (· * ·) ?_ rfl
    refine (shapeCast_merge_apply _ _ p s h _ hr).trans ?_
    refine (truncf_apply (φ := .f32) (ψ := .bf16) _ bitsLt_bf16_f32 _).trans ((tanh_apply _ _).trans (congrArg Ideal.tanh ?_))
    refine (addf_apply _ _ _).trans (congrArg₂ (· + ·) ((addf_apply _ _ _).trans (congrArg₂ (· + ·) ?_ ?_)) ?_)
    · exact (broadcastTo_a1c_abc_apply _ _ p s h).trans ((shapeCast_ac_a1c_apply _ _ p 0 h).trans (shapeCast_1ab_ab_apply _ _ p h))
    · exact (broadcastTo_1bc_abc_apply _ _ p s h).trans ((shapeCast_ab_1ab_apply _ _ 0 s h).trans (shapeCast_1ab_ab_apply _ _ s h))
    · refine (broadcastTo_11c_abc_apply _ _ p s h).trans ((shapeCast_ab_1ab_apply _ _ 0 0 h).trans ?_)
      rw [shapeCast_self]
  · refine (broadcastTo_1b_ab_apply _ _ _ o).trans ?_
    rw [shapeCast_self]

end Cert.KernelIdeal.FusedBody

end
-- ==== Proof.JointSpec.lean ====
/-
  The joint network of a transducer as one function of its six argument arrays, entry by entry, over the extended
  reals: both states are projected by the two halves of the first weight matrix, every encoder row is added to
  every decoder row of the same batch entry and to the first bias, tanh is applied, and the result is multiplied by the
  second weight matrix and the second bias added:
    out (b, t, u, o) = (Σ_h tanh ((E (b, t, h) + D (b, u, h)) + b1 h) · W2 (h, o)) + b2 o,
    E (b, t, h) = Σ_d enc (b, t, d) · W1 (d, h),   D (b, u, h) = Σ_d dec (b, u, d) · W1 (512 + d, h).
  No program is mentioned here.
-/
import Idealize.ShloMosaic.PureOps.Ideal
import Idealize.ShloMosaic.Lib.ValueIdx

noncomputable section

namespace Cert.Joint

open Idealize.ShloMosaic Idealize.ShloMosaic.ValueIdx

/-- Row `d` of the upper half of the first weight matrix. -/
abbrev lo (d : Fin 512) : Fin 1024 := ⟨d.val, by have := d.isLt; omega⟩
/-- Row `d` of its lower half. -/
abbrev hi (d : Fin 512) : Fin 1024 := ⟨512 + d.val, by have := d.isLt; omega⟩

/-- The encoder state projected by the upper half of the first weight matrix. -/
def encProj (A : (⟨3, ![8, 256, 512]⟩ : Shape).Idx → EReal) (W1 : (⟨2, ![1024, 1024]⟩ : Shape).Idx → EReal) :
    (⟨3, ![8, 256, 1024]⟩ : Shape).Idx → EReal :=
  fun i => ∑ d : Fin 512, A (ix3 (n0 := 8) (n1 := 256) (i 0) (i 1) d) * W1 (ix2 (lo d) (n1 := 1024) (i 2))

/-- The decoder state projected by the lower half. -/
def decProj (A : (⟨3, ![8, 64, 512]⟩ : Shape).Idx → EReal) (W1 : (⟨2, ![1024, 1024]⟩ : Shape).Idx → EReal) :
    (⟨3, ![8, 64, 1024]⟩ : Shape).Idx → EReal :=
  fun i => ∑ d : Fin 512, A (ix3 (n0 := 8) (n1 := 64) (i 0) (i 1) d) * W1 (ix2 (hi d) (n1 := 1024) (i 2))

theorem encProj_apply (A : (⟨3, ![8, 256, 512]⟩ : Shape).Idx → EReal) (W1 : (⟨2, ![1024, 1024]⟩ : Shape).Idx → EReal)
    (b : Fin 8) (t : Fin 256) (h : Fin 1024) :
    encProj A W1 (ix3 b t h) = ∑ d : Fin 512, A (ix3 b t d) * W1 (ix2 (lo d) h) := rfl

theorem decProj_apply (A : (⟨3, ![8, 64, 512]⟩ : Shape).Idx → EReal) (W1 : (⟨2, ![1024, 1024]⟩ : Shape).Idx → EReal)
    (b : Fin 8) (u : Fin 64) (h : Fin 1024) :
    decProj A W1 (ix3 b u h) = ∑ d : Fin 512, A (ix3 b u d) * W1 (ix2 (hi d) h) := rfl

/-- One entry of the joint network from the two projected states: `T` encoder rows and `U` decoder rows per batch entry. -/
def jointAt {T : ℕ} (E : (⟨3, ![8, T, 1024]⟩ : Shape).Idx → EReal) (D : (⟨3, ![8, 64, 1024]⟩ : Shape).Idx → EReal)
    (b1 : Fin 1024 → EReal) (W2 : (⟨2, ![1024, 128]⟩ : Shape).Idx → EReal) (b2 : Fin 128 → EReal)
    (b : Fin 8) (t : Fin T) (u : Fin 64) (o : Fin 128) : EReal :=
  (∑ h : Fin 1024, Ideal.tanh ((E (ix3 b t h) + D (ix3 b u h)) + b1 h) * W2 (ix2 h o)) + b2 o

/-- The joint network from the two projected states. -/
def joint (E : (⟨3, ![8, 256, 1024]⟩ : Shape).Idx → EReal) (D : (⟨3, ![8, 64, 1024]⟩ : Shape).Idx → EReal)
    (b1 : Fin 1024 → EReal) (W2 : (⟨2, ![1024, 128]⟩ : Shape).Idx → EReal) (b2 : Fin 128 → EReal) :
    (⟨4, ![8, 256, 64, 128]⟩ : Shape).Idx → EReal :=
  fun i => jointAt E D b1 W2 b2 (i 0) (i 1) (i 2) (i 3)

theorem joint_apply (E : (⟨3, ![8, 256, 1024]⟩ : Shape).Idx → EReal) (D : (⟨3, ![8, 64, 1024]⟩ : Shape).Idx → EReal)
    (b1 : Fin 1024 → EReal) (W2 : (⟨2, ![1024, 128]⟩ : Shape).Idx → EReal) (b2 : Fin 128 → EReal)
    (b : Fin 8) (t : Fin 256) (u : Fin 64) (o : Fin 128) :
    joint E D b1 W2 b2 (ix4 b t u o) = jointAt E D b1 W2 b2 b t u o := rfl

/-- An entry of the joint network is determined by ONE encoder row, ONE decoder row, the first bias, ONE column of the
    second weight matrix and one entry of the second bias: a block of rows that agrees with the whole arrays on those
    gives the same entry. -/
theorem entry_congr
    (x0 : (⟨3, ![1, 32, 1024]⟩ : Shape).Idx → EReal) (x1 : (⟨3, ![1, 64, 1024]⟩ : Shape).Idx → EReal)
    (x2 : (⟨2, ![1, 1024]⟩ : Shape).Idx → EReal) (x3 : (⟨2, ![1024, 128]⟩ : Shape).Idx → EReal) (x4 : (⟨2, ![1, 128]⟩ : Shape).Idx → EReal)
    (E : (⟨3, ![8, 256, 1024]⟩ : Shape).Idx → EReal) (D : (⟨3, ![8, 64, 1024]⟩ : Shape).Idx → EReal)
    (b1 : Fin 1024 → EReal) (W2 : (⟨2, ![1024, 128]⟩ : Shape).Idx → EReal) (b2 : Fin 128 → EReal)
    (p : Fin 32) (s : Fin 64) (o : Fin 128) (b : Fin 8) (t : Fin 256) (s' : Fin 64) (o' : Fin 128)
    (hE : ∀ h : Fin 1024, x0 (ix3 (0 : Fin 1) p h) = E (ix3 b t h))
    (hD : ∀ h : Fin 1024, x1 (ix3 (0 : Fin 1) s h) = D (ix3 b s' h))
    (h1 : ∀ h : Fin 1024, x2 (ix2 (0 : Fin 1) h) = b1 h)
    (hW : ∀ h : Fin 1024, x3 (ix2 h o) = W2 (ix2 h o'))
    (h2 : x4 (ix2 (0 : Fin 1) o) = b2 o') :
    (∑ h : Fin 1024, Ideal.tanh ((x0 (ix3 (0 : Fin 1) p h) + x1 (ix3 (0 : Fin 1) s h)) + x2 (ix2 (0 : Fin 1) h)) * x3 (ix2 h o))
        + x4 (ix2 (0 : Fin 1) o)
      = jointAt E D b1 W2 b2 b t s' o' := by
  unfold jointAt
  rw [h2]
  refine congrArg (· + b2 o') (Finset.sum_congr rfl fun h _ => ?_)
  rw [hE h, hD h, h1 h, hW h]

/-- The joint network of equal operands is equal (the biases compared entry by entry). -/
theorem joint_congr {E E' : (⟨3, ![8, 256, 1024]⟩ : Shape).Idx → EReal} {D D' : (⟨3, ![8, 64, 1024]⟩ : Shape).Idx → EReal}
    {b1 b1' : Fin 1024 → EReal} {W2 W2' : (⟨2, ![1024, 128]⟩ : Shape).Idx → EReal} {b2 b2' : Fin 128 → EReal}
    (hE : E = E') (hD : D = D') (h1 : ∀ h, b1 h = b1' h) (hW : W2 = W2') (h2 : ∀ o, b2 o = b2' o) :
    joint E D b1 W2 b2 = joint E' D' b1' W2' b2' := by
  obtain rfl : b1 = b1' := funext h1
  obtain rfl : b2 = b2' := funext h2
  rw [hE, hD, hW]

/-- The whole network from the six argument arrays. -/
def net (A0 : (⟨3, ![8, 256, 512]⟩ : Shape).Idx → EReal) (A1 : (⟨3, ![8, 64, 512]⟩ : Shape).Idx → EReal)
    (W1 : (⟨2, ![1024, 1024]⟩ : Shape).Idx → EReal) (B1 : (⟨1, ![1024]⟩ : Shape).Idx → EReal)
    (W2 : (⟨2, ![1024, 128]⟩ : Shape).Idx → EReal) (B2 : (⟨1, ![128]⟩ : Shape).Idx → EReal) :
    (⟨4, ![8, 256, 64, 128]⟩ : Shape).Idx → EReal :=
  joint (encProj A0 W1) (decProj A1 W1) (fun h => B1 (ix1 h)) W2 (fun o => B2 (ix1 o))

end Cert.Joint

end
-- ==== Proof.FusedRegion.lean ====
/-
  The fused launch as one whole-array function. Its grid is 8 batch entries × 8 blocks of 32 encoder rows; at a point
  it reads that batch entry's 32 encoder rows and all its 64 decoder rows, and both biases and the second weight matrix
  whole. An entry of the joint network depends on one encoder row, one decoder row of the same batch entry, and the
  shared bias and weights, so what a point writes back is its block of the joint network of the WHOLE arrays the launch
  finds; the 64 blocks tile the output.
-/
import proofs.«129630_j14001593385645_1_alg».proof.Proof.Gen.KernelIdeal.Frame
import proofs.«129630_j14001593385645_1_alg».proof.Proof.FusedBody
import proofs.«129630_j14001593385645_1_alg».proof.Proof.JointSpec
import Idealize.ShloMosaic.Lib.Pipeline.Value

noncomputable section

namespace Cert.KernelIdeal.Fused

open Cert.KernelIdeal Cert.KernelIdeal.Gen Idealize.ShloMosaic Idealize.ShloMosaic.TcCoe Idealize.SL.Sem
open Idealize.ShloMosaic.ValueIdx Cert.Joint
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The printed index maps over the grid: the encoder block moves with the output's batch entry and row block, the
    decoder block with its batch entry, everything else stays; the output's block indices are in range. -/
theorem idx_facts : ∀ t : Fin cfg2.N,
    win2_0.index t (0 : Fin 3) = win2_5.index t (0 : Fin 4)
    ∧ win2_0.index t (1 : Fin 3) = win2_5.index t (1 : Fin 4)
    ∧ win2_0.index t (2 : Fin 3) = 0
    ∧ win2_1.index t (0 : Fin 3) = win2_5.index t (0 : Fin 4)
    ∧ win2_1.index t (1 : Fin 3) = 0
    ∧ win2_1.index t (2 : Fin 3) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (2 : Fin 4) = 0
    ∧ win2_5.index t (3 : Fin 4) = 0
    ∧ win2_5.index t (0 : Fin 4) < 8
    ∧ win2_5.index t (1 : Fin 4) < 8 :=
  (by decide +kernel : ∀ t : Fin grid2.N, _)

/-- Every (batch entry, row block) pair is some point's. -/
theorem idx_onto : ∀ (q0 q1 : Fin 8), ∃ t : Fin cfg2.N, win2_5.index t (0 : Fin 4) = q0.val ∧ win2_5.index t (1 : Fin 4) = q1.val :=
  (by decide +kernel : ∀ (q0 q1 : Fin 8), ∃ t : Fin grid2.N, win2_5.index t (0 : Fin 4) = q0.val ∧ win2_5.index t (1 : Fin 4) = q1.val)

/-- What point `t` writes back is block `t` of the joint network of the arrays the launch finds. -/
theorem flushed_eq (c : Dev nD) (t : Fin cfg2.N) :
    (dat2 V c).flushed 5 t = ((cfg2.win 5).blk t).view.read (Elt Ideal)
      (joint (V c main_v5) (V c main_v7) (fun h => V c main_v8 (ix2 (0 : Fin 1) h)) (V c main_arg4)
        (fun o => V c main_v9 (ix2 (0 : Fin 1) o))) := by
  show (cfg2.win 5).cut (grid2.coords t) ((dat2 V c).after 5 t) = _
  rw [after2_5]
  unfold out2_5
  rw [View.canon_unit_zero hz4]
  simp only [View.ld_unit_zero (S := S1x32x1024) hz3, View.ld_unit_zero (S := S1x64x1024) hz3,
    View.ld_unit_zero (S := S1x1024) hz2, View.ld_unit_zero (S := S1024x128) hz2, View.ld_unit_zero (S := S1x128) hz2]
  obtain ⟨e00, e01, e02, e10, e11, e12, e20, e21, e30, e31, e40, e41, e52, e53, b50, b51⟩ := idx_facts t
  funext j
  have hj0 : (j 0).val < 1 := (j 0).isLt
  refine (congrArg (k2_pay1 (iblk2 V c 0 t) (iblk2 V c 1 t) (iblk2 V c 2 t) (iblk2 V c 3 t) (iblk2 V c 4 t)) (eq_ix4 j)).trans ?_
  refine (FusedBody.pay_apply _ _ _ _ _ (j 0) (j 1) (j 2) (j 3)).trans ?_
  show _ = jointAt (V c main_v5) (V c main_v7) (fun h => V c main_v8 (ix2 (0 : Fin 1) h)) (V c main_arg4)
      (fun o => V c main_v9 (ix2 (0 : Fin 1) o))
      ((((cfg2.win 5).blk t).view.emb j) 0) ((((cfg2.win 5).blk t).view.emb j) 1)
      ((((cfg2.win 5).blk t).view.emb j) 2) ((((cfg2.win 5).blk t).view.emb j) 3)
  refine entry_congr _ _ _ _ _ _ _ _ _ _ (j 1) (j 2) (j 3) _ _ _ _ (fun h => ?_) (fun h => ?_) (fun h => ?_) (fun h => ?_) ?_
  · show V c main_v5 (((cfg2.win 0).blk t).view.emb (ix3 (0 : Fin 1) (j 1) h)) = V c main_v5 (ix3 ((((cfg2.win 5).blk t).view.emb j) 0) ((((cfg2.win 5).blk t).view.emb j) 1) h)
    refine congrArg _ (funext fun a => Fin.ext ?_)
    match a with
    | ⟨0, _⟩ => show win2_0.index t (0 : Fin 3) * 1 + 1 * 0 = win2_5.index t (0 : Fin 4) * 1 + 1 * (j 0).val; omega
    | ⟨1, _⟩ => show win2_0.index t (1 : Fin 3) * 32 + 1 * (j 1).val = win2_5.index t (1 : Fin 4) * 32 + 1 * (j 1).val; omega
    | ⟨2, _⟩ => show win2_0.index t (2 : Fin 3) * 1024 + 1 * h.val = h.val; omega
  · show V c main_v7 (((cfg2.win 1).blk t).view.emb (ix3 (0 : Fin 1) (j 2) h)) = V c main_v7 (ix3 ((((cfg2.win 5).blk t).view.emb j) 0) ((((cfg2.win 5).blk t).view.emb j) 2) h)
    refine congrArg _ (funext fun a => Fin.ext ?_)
    match a with
    | ⟨0, _⟩ => show win2_1.index t (0 : Fin 3) * 1 + 1 * 0 = win2_5.index t (0 : Fin 4) * 1 + 1 * (j 0).val; omega
    | ⟨1, _⟩ => show win2_1.index t (1 : Fin 3) * 64 + 1 * (j 2).val = win2_5.index t (2 : Fin 4) * 64 + 1 * (j 2).val; omega
    | ⟨2, _⟩ => show win2_1.index t (2 : Fin 3) * 1024 + 1 * h.val = h.val; omega
  · show V c main_v8 (((cfg2.win 2).blk t).view.emb (ix2 (0 : Fin 1) h)) = V c main_v8 (ix2 (0 : Fin 1) h)
    refine congrArg _ (funext fun a => Fin.ext ?_)
    match a with
    | ⟨0, _⟩ => show win2_2.index t (0 : Fin 2) * 1 + 1 * 0 = 0; omega
    | ⟨1, _⟩ => show win2_2.index t (1 : Fin 2) * 1024 + 1 * h.val = h.val; omega
  · show V c main_arg4 (((cfg2.win 3).blk t).view.emb (ix2 h (j 3))) = V c main_arg4 (ix2 h ((((cfg2.win 5).blk t).view.emb j) 3))
    refine congrArg _ (funext fun a => Fin.ext ?_)
    match a with
    | ⟨0, _⟩ => show win2_3.index t (0 : Fin 2) * 1024 + 1 * h.val = h.val; omega
    | ⟨1, _⟩ => show win2_3.index t (1 : Fin 2) * 128 + 1 * (j 3).val = win2_5.index t (3 : Fin 4) * 128 + 1 * (j 3).val; omega
  · show V c main_v9 (((cfg2.win 4).blk t).view.emb (ix2 (0 : Fin 1) (j 3))) = V c main_v9 (ix2 (0 : Fin 1) ((((cfg2.win 5).blk t).view.emb j) 3))
    refine congrArg _ (funext fun a => Fin.ext ?_)
    match a with
    | ⟨0, _⟩ => show win2_4.index t (0 : Fin 2) * 1 + 1 * 0 = 0; omega
    | ⟨1, _⟩ => show win2_4.index t (1 : Fin 2) * 128 + 1 * (j 3).val = win2_5.index t (3 : Fin 4) * 128 + 1 * (j 3).val; omega

/-- An index of the output array is in point `t`'s block iff each coordinate is in the block's range on its axis. -/
theorem mem_blk (t : Fin cfg2.N) (i : S8x256x64x128.Idx) :
    i ∈ ((cfg2.win 5).blk t).view.set ↔ ∀ a : Fin 4, win2_5.index t a * S1x32x64x128.size a ≤ (i a).val ∧ (i a).val < win2_5.index t a * S1x32x64x128.size a + S1x32x64x128.size a := by
  show i ∈ ((View.whole main_v10).slice (win2_5.rect t)).set ↔ _
  rw [View.set_slice_whole, Rect.mem_set_unit]
  exact Iff.rfl

/-- Entry `(b, r, ·, ·)` of the output is in the block of the point (batch entry `b`, row block `r / 32`). -/
theorem cover (i : S8x256x64x128.Idx) : ∃ t : Fin cfg2.N, (cfg2.win 5).flush t = true ∧ i ∈ ((cfg2.win 5).blk t).view.set := by
  have hi0 : (i 0).val < 8 := (i 0).isLt
  have hi1 : (i 1).val < 256 := (i 1).isLt
  have hi2 : (i 2).val < 64 := (i 2).isLt
  have hi3 : (i 3).val < 128 := (i 3).isLt
  obtain ⟨t, ht0, ht1⟩ := idx_onto ⟨(i 0).val, hi0⟩ ⟨(i 1).val / 32, by omega⟩
  have q0 : win2_5.index t (0 : Fin 4) = (i 0).val := ht0
  have q1 : win2_5.index t (1 : Fin 4) = (i 1).val / 32 := ht1
  obtain ⟨e00, e01, e02, e10, e11, e12, e20, e21, e30, e31, e40, e41, e52, e53, b50, b51⟩ := idx_facts t
  refine ⟨t, flush2_5 t, ?_⟩
  rw [mem_blk]
  intro a
  match a with
  | ⟨0, _⟩ => show win2_5.index t (0 : Fin 4) * 1 ≤ (i 0).val ∧ (i 0).val < win2_5.index t (0 : Fin 4) * 1 + 1; omega
  | ⟨1, _⟩ => show win2_5.index t (1 : Fin 4) * 32 ≤ (i 1).val ∧ (i 1).val < win2_5.index t (1 : Fin 4) * 32 + 32; omega
  | ⟨2, _⟩ => show win2_5.index t (2 : Fin 4) * 64 ≤ (i 2).val ∧ (i 2).val < win2_5.index t (2 : Fin 4) * 64 + 64; omega
  | ⟨3, _⟩ => show win2_5.index t (3 : Fin 4) * 128 ≤ (i 3).val ∧ (i 3).val < win2_5.index t (3 : Fin 4) * 128 + 128; omega

/-- After all its write-backs the launch's output array is the joint network of the arrays it read. -/
theorem final (c : Dev nD) : (dat2 V c).arrAt 5 cfg2.N
    = joint (V c main_v5) (V c main_v7) (fun h => V c main_v8 (ix2 (0 : Fin 1) h)) (V c main_arg4)
        (fun o => V c main_v9 (ix2 (0 : Fin 1) o)) :=
  (dat2 V c).arrAt_eq_of_cover 5 _ (fun t _ => flushed_eq V c t) cover

end Cert.KernelIdeal.Fused

end
-- ==== Proof.Chain.lean ====
/-
  The thread of buffer contents through the program's six segments, read at the buffers the three launches use. The
  host stretches slice the first weight matrix into its two halves, merge the leading axes of the two states, split them
  again on the two projections, and lay each bias out as one row; no stretch and no launch writes a buffer that a later
  segment reads other than its own result. So the third launch finds the two projected states, the biases as rows and
  the second weight matrix, and its output — the program's result — is the joint network of the six arguments.
-/
import proofs.«129630_j14001593385645_1_alg».proof.Proof.Gen.KernelIdeal.Frame
import proofs.«129630_j14001593385645_1_alg».proof.Proof.KernelRun
import proofs.«129630_j14001593385645_1_alg».proof.Proof.Projections
import proofs.«129630_j14001593385645_1_alg».proof.Proof.FusedRegion
import proofs.«129630_j14001593385645_1_alg».proof.Proof.LibFlatten
import proofs.«129630_j14001593385645_1_alg».proof.Proof.LibRowBlocks
import proofs.«129630_j14001593385645_1_alg».proof.Proof.JointSpec
import Idealize.ShloMosaic.Lib.StableHlo.Run

noncomputable section

namespace Cert.KernelIdeal.Chain

open Cert.KernelIdeal Cert.KernelIdeal.Gen Idealize.ShloMosaic Idealize.ShloMosaic.TcCoe Idealize.SL.Sem
open Idealize.ShloMosaic.StableHlo Idealize.ShloMosaic.ValueIdx
open Cert.DenseLib Cert.RowBlocks Cert.FlattenLib Cert.Joint

/-! ## Each host stretch, from any contents -/

section Host

variable (W : Valuation τ sig (Elt Ideal))

theorem ops0_v0 : after hostOps0 W (Proc.devRef .tc main_v0)
    = extractStridedSlice S512x1024 ![0, 0] (W (Proc.devRef .tc main_arg2)) slices_S1024x1024_S512x1024_0_0 := by
  after_results
theorem ops0_v1 : after hostOps0 W (Proc.devRef .tc main_v1)
    = extractStridedSlice S512x1024 ![512, 0] (W (Proc.devRef .tc main_arg2)) slices_S1024x1024_S512x1024_512_0 := by
  after_results
theorem ops0_v2 : after hostOps0 W (Proc.devRef .tc main_v2)
    = shapeCast S2048x512 (W (Proc.devRef .tc main_arg0)) shapeCasts_S8x256x512_S2048x512 := by
  after_results
  rfl
theorem ops0_v3 : after hostOps0 W (Proc.devRef .tc main_v3)
    = shapeCast S512x512 (W (Proc.devRef .tc main_arg1)) shapeCasts_S8x64x512_S512x512 := by
  after_results
  rfl
theorem ops0_keep_arg3 : after hostOps0 W (Proc.devRef .tc main_arg3) = W (Proc.devRef .tc main_arg3) := by
  after_results
theorem ops0_keep_arg4 : after hostOps0 W (Proc.devRef .tc main_arg4) = W (Proc.devRef .tc main_arg4) := by
  after_results
theorem ops0_keep_arg5 : after hostOps0 W (Proc.devRef .tc main_arg5) = W (Proc.devRef .tc main_arg5) := by
  after_results

theorem ops1_v5 : after hostOps1 W (Proc.devRef .tc main_v5)
    = shapeCast S8x256x1024 (W (Proc.devRef .tc main_v4)) shapeCasts_S2048x1024_S8x256x1024 := by
  after_results
  rfl
theorem ops1_keep_v1 : after hostOps1 W (Proc.devRef .tc main_v1) = W (Proc.devRef .tc main_v1) := by
  after_results
theorem ops1_keep_v3 : after hostOps1 W (Proc.devRef .tc main_v3) = W (Proc.devRef .tc main_v3) := by
  after_results
theorem ops1_keep_arg3 : after hostOps1 W (Proc.devRef .tc main_arg3) = W (Proc.devRef .tc main_arg3) := by
  after_results
theorem ops1_keep_arg4 : after hostOps1 W (Proc.devRef .tc main_arg4) = W (Proc.devRef .tc main_arg4) := by
  after_results
theorem ops1_keep_arg5 : after hostOps1 W (Proc.devRef .tc main_arg5) = W (Proc.devRef .tc main_arg5) := by
  after_results

theorem ops2_v7 : after hostOps2 W (Proc.devRef .tc main_v7)
    = shapeCast S8x64x1024 (W (Proc.devRef .tc main_v6)) shapeCasts_S512x1024_S8x64x1024 := by
  after_results
  rfl
theorem ops2_v8 : after hostOps2 W (Proc.devRef .tc main_v8)
    = shapeCast S1x1024 (W (Proc.devRef .tc main_arg3)) shapeCasts_S1024_S1x1024 := by
  after_results
  rfl
theorem ops2_v9 : after hostOps2 W (Proc.devRef .tc main_v9)
    = shapeCast S1x128 (W (Proc.devRef .tc main_arg5)) shapeCasts_S128_S1x128 := by
  after_results
  rfl
theorem ops2_keep_v5 : after hostOps2 W (Proc.devRef .tc main_v5) = W (Proc.devRef .tc main_v5) := by
  after_results
theorem ops2_keep_arg4 : after hostOps2 W (Proc.devRef .tc main_arg4) = W (Proc.devRef .tc main_arg4) := by
  after_results

end Host

/-! ## The thread, buffer by buffer -/

variable (m : (ℓ : Loc nD τ sig) → Buf (Elt Ideal) ℓ) (ρ : Dev nD → PrngReg) (c : Dev nD)

/-- What the first launch finds: the upper half of the first weight matrix and the encoder state with its leading axes merged. -/
theorem V1_v0 : V1 m ρ c main_v0
    = extractStridedSlice S512x1024 ![0, 0] (m ((c : Thread nD τ).loc main_arg2)) slices_S1024x1024_S512x1024_0_0 :=
  ops0_v0 (W0 m ρ c)
theorem V1_v2 : V1 m ρ c main_v2 = shapeCast S2048x512 (m ((c : Thread nD τ).loc main_arg0)) shapeCasts_S8x256x512_S2048x512 :=
  ops0_v2 (W0 m ρ c)

/-- The first launch leaves the encoder projection, as a `[2048, 1024]` matrix. -/
theorem W2_v4 : W2 m ρ c (Proc.devRef .tc main_v4)
    = mm (shapeCast S2048x512 (m ((c : Thread nD τ).loc main_arg0)) shapeCasts_S8x256x512_S2048x512)
        (extractStridedSlice S512x1024 ![0, 0] (m ((c : Thread nD τ).loc main_arg2)) slices_S1024x1024_S512x1024_0_0) :=
  (W2_arr m ρ c 2).trans ((Proj0.final (V1 m ρ) c).trans (by rw [V1_v2, V1_v0]))

/-- What the second launch finds: the lower half and the decoder state merged — the first launch and the stretch
    between them write neither. -/
theorem V3_v1 : V3 m ρ c main_v1
    = extractStridedSlice S512x1024 ![512, 0] (m ((c : Thread nD τ).loc main_arg2)) slices_S1024x1024_S512x1024_512_0 :=
  (ops1_keep_v1 (W2 m ρ c)).trans ((W2_of_ne m ρ c main_v1 (by decide)).trans (ops0_v1 (W0 m ρ c)))
theorem V3_v3 : V3 m ρ c main_v3 = shapeCast S512x512 (m ((c : Thread nD τ).loc main_arg1)) shapeCasts_S8x64x512_S512x512 :=
  (ops1_keep_v3 (W2 m ρ c)).trans ((W2_of_ne m ρ c main_v3 (by decide)).trans (ops0_v3 (W0 m ρ c)))

/-- The second launch leaves the decoder projection, as a `[512, 1024]` matrix. -/
theorem W4_v6 : W4 m ρ c (Proc.devRef .tc main_v6)
    = mm (shapeCast S512x512 (m ((c : Thread nD τ).loc main_arg1)) shapeCasts_S8x64x512_S512x512)
        (extractStridedSlice S512x1024 ![512, 0] (m ((c : Thread nD τ).loc main_arg2)) slices_S1024x1024_S512x1024_512_0) :=
  (W4_arr m ρ c 2).trans ((Proj1.final (V3 m ρ) c).trans (by rw [V3_v3, V3_v1]))

/-- The arguments the third launch reads are as launched when it starts. -/
theorem W4_arg3 : W4 m ρ c (Proc.devRef .tc main_arg3) = m ((c : Thread nD τ).loc main_arg3) :=
  (W4_of_ne m ρ c main_arg3 (by decide)).trans ((ops1_keep_arg3 (W2 m ρ c)).trans
    ((W2_of_ne m ρ c main_arg3 (by decide)).trans (ops0_keep_arg3 (W0 m ρ c))))
theorem W4_arg4 : W4 m ρ c (Proc.devRef .tc main_arg4) = m ((c : Thread nD τ).loc main_arg4) :=
  (W4_of_ne m ρ c main_arg4 (by decide)).trans ((ops1_keep_arg4 (W2 m ρ c)).trans
    ((W2_of_ne m ρ c main_arg4 (by decide)).trans (ops0_keep_arg4 (W0 m ρ c))))
theorem W4_arg5 : W4 m ρ c (Proc.devRef .tc main_arg5) = m ((c : Thread nD τ).loc main_arg5) :=
  (W4_of_ne m ρ c main_arg5 (by decide)).trans ((ops1_keep_arg5 (W2 m ρ c)).trans
    ((W2_of_ne m ρ c main_arg5 (by decide)).trans (ops0_keep_arg5 (W0 m ρ c))))

/-- The third launch finds the encoder projection split back into `[8, 256, 1024]`: the encoder state projected. -/
theorem V5_v5 : V5 m ρ c main_v5 = encProj (m ((c : Thread nD τ).loc main_arg0)) (m ((c : Thread nD τ).loc main_arg2)) := by
  have e : V5 m ρ c main_v5 = shapeCast S8x256x1024 (W2 m ρ c (Proc.devRef .tc main_v4)) shapeCasts_S2048x1024_S8x256x1024 :=
    (ops2_keep_v5 (W4 m ρ c)).trans ((W4_of_ne m ρ c main_v5 (by decide)).trans (ops1_v5 (W2 m ρ c)))
  rw [e, W2_v4]
  funext i
  obtain ⟨b, t, h, rfl⟩ : ∃ (b : Fin 8) (t : Fin 256) (h : Fin 1024), i = ix3 b t h := ⟨i 0, i 1, i 2, eq_ix3 i⟩
  have hr : (⟨b.val * 256 + t.val, by have := b.isLt; have := t.isLt; omega⟩ : Fin 2048).val = b.val * 256 + t.val := rfl
  refine (shapeCast_split_apply _ _ b t h _ hr).trans ((mm_apply _ _ _ h).trans ?_)
  rw [encProj_apply]
  refine Finset.sum_congr rfl fun d _ => congrArg₂ (· * ·) (shapeCast_merge_apply _ _ b t d _ hr) ?_
  exact extractStridedSlice_apply ![0, 0] _ _ (ix2 d h) (ix2 (lo d) h) (fun a => match a with
    | ⟨0, _⟩ => by show d.val = 0 + d.val; omega
    | ⟨1, _⟩ => by show h.val = 0 + h.val; omega)

/-- and the decoder projection split back into `[8, 64, 1024]`. -/
theorem V5_v7 : V5 m ρ c main_v7 = decProj (m ((c : Thread nD τ).loc main_arg1)) (m ((c : Thread nD τ).loc main_arg2)) := by
  have e : V5 m ρ c main_v7 = shapeCast S8x64x1024 (W4 m ρ c (Proc.devRef .tc main_v6)) shapeCasts_S512x1024_S8x64x1024 :=
    ops2_v7 (W4 m ρ c)
  rw [e, W4_v6]
  funext i
  obtain ⟨b, u, h, rfl⟩ : ∃ (b : Fin 8) (u : Fin 64) (h : Fin 1024), i = ix3 b u h := ⟨i 0, i 1, i 2, eq_ix3 i⟩
  have hr : (⟨b.val * 64 + u.val, by have := b.isLt; have := u.isLt; omega⟩ : Fin 512).val = b.val * 64 + u.val := rfl
  refine (shapeCast_split_apply _ _ b u h _ hr).trans ((mm_apply _ _ _ h).trans ?_)
  rw [decProj_apply]
  refine Finset.sum_congr rfl fun d _ => congrArg₂ (· * ·) (shapeCast_merge_apply _ _ b u d _ hr) ?_
  exact extractStridedSlice_apply ![512, 0] _ _ (ix2 d h) (ix2 (hi d) h) (fun a => match a with
    | ⟨0, _⟩ => by show 512 + d.val = 512 + d.val; rfl
    | ⟨1, _⟩ => by show h.val = 0 + h.val; omega)

/-- The first bias as one row. -/
theorem V5_v8 (h : Fin 1024) : V5 m ρ c main_v8 (ix2 (0 : Fin 1) h) = m ((c : Thread nD τ).loc main_arg3) (ix1 h) := by
  have e : V5 m ρ c main_v8 = shapeCast S1x1024 (W4 m ρ c (Proc.devRef .tc main_arg3)) shapeCasts_S1024_S1x1024 := ops2_v8 (W4 m ρ c)
  rw [e, W4_arg3]
  exact shapeCast_vecRow_apply _ _ 0 h

/-- The second bias as one row. -/
theorem V5_v9 (o : Fin 128) : V5 m ρ c main_v9 (ix2 (0 : Fin 1) o) = m ((c : Thread nD τ).loc main_arg5) (ix1 o) := by
  have e : V5 m ρ c main_v9 = shapeCast S1x128 (W4 m ρ c (Proc.devRef .tc main_arg5)) shapeCasts_S128_S1x128 := ops2_v9 (W4 m ρ c)
  rw [e, W4_arg5]
  exact shapeCast_vecRow_apply _ _ 0 o

/-- The second weight matrix. -/
theorem V5_arg4 : V5 m ρ c main_arg4 = m ((c : Thread nD τ).loc main_arg4) :=
  (ops2_keep_arg4 (W4 m ρ c)).trans (W4_arg4 m ρ c)

/-- The program's result buffer ends at the joint network of the six argument arrays. -/
theorem result_eq : W6 m ρ c (Proc.devRef .tc main_v10)
    = net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (Whole.W6_result m ρ c).trans ((Fused.final (V5 m ρ) c).trans
    (joint_congr (V5_v5 m ρ c) (V5_v7 m ρ c) (V5_v8 m ρ c) (V5_arg4 m ρ c) (V5_v9 m ρ c)))

end Cert.KernelIdeal.Chain

end
-- ==== Proof.RefSide.lean ====
/-
  The reference program read entry by entry: its seventeen host operations compose to the joint network of the six
  arguments. The two general dots contract the last axis of a rank-three state with the leading axis of a half of the
  first weight matrix (rows `0 … 511` for the encoder, `512 … 1023` for the decoder); the broadcasts lay an encoder row
  along the decoder axis, a decoder row along the encoder axis and the bias along both; the last dot contracts the
  hidden axis with the second weight matrix.
-/
import proofs.«129630_j14001593385645_1_alg».proof.Proof.Gen.ReferenceIdeal.Read
import proofs.«129630_j14001593385645_1_alg».proof.Proof.JointSpec

noncomputable section

namespace Cert.ReferenceIdeal.RefValue

open Cert.ReferenceIdeal Cert.ReferenceIdeal.Read Idealize.ShloMosaic Idealize.ShloMosaic.ValueIdx Cert.Joint

variable (x0 : (⟨S8x256x512, .f32⟩ : BufTy).Contents (Elt Ideal)) (x1 : (⟨S8x64x512, .f32⟩ : BufTy).Contents (Elt Ideal))
  (x2 : (⟨S1024x1024, .f32⟩ : BufTy).Contents (Elt Ideal)) (x3 : (⟨S1024, .f32⟩ : BufTy).Contents (Elt Ideal))
  (x4 : (⟨S1024x128, .f32⟩ : BufTy).Contents (Elt Ideal)) (x5 : (⟨S128, .f32⟩ : BufTy).Contents (Elt Ideal))

/-- The encoder's dot at an entry is the projection by the upper half of the first weight matrix. -/
theorem enc_apply (b : Fin 8) (t : Fin 256) (h : Fin 1024) :
    val_main_v2 (F := Ideal) x0 x2 (ix3 b t h) = encProj x0 x2 (ix3 b t h) := by
  rw [val_main_v2_apply, encProj_apply]
  refine Finset.sum_congr rfl fun d _ => ?_
  rw [val_main_v0_apply]
  have e1 : lidx_main_v2 (ix3 b t h) d = ix3 b t d :=
    funext fun a => Fin.ext (by match a with | ⟨0, _⟩ => rfl | ⟨1, _⟩ => rfl | ⟨2, _⟩ => rfl)
  have e2 : idx_main_v0 (ridx_main_v2 (ix3 b t h) d) = ix2 (lo d) h :=
    funext fun a => Fin.ext (by match a with | ⟨0, _⟩ => rfl | ⟨1, _⟩ => rfl)
  rw [e1, e2]

/-- The decoder's dot at an entry is the projection by the lower half. -/
theorem dec_apply (b : Fin 8) (u : Fin 64) (h : Fin 1024) :
    val_main_v3 (F := Ideal) x1 x2 (ix3 b u h) = decProj x1 x2 (ix3 b u h) := by
  rw [val_main_v3_apply, decProj_apply]
  refine Finset.sum_congr rfl fun d _ => ?_
  rw [val_main_v1_apply]
  have e1 : lidx_main_v3 (ix3 b u h) d = ix3 b u d :=
    funext fun a => Fin.ext (by match a with | ⟨0, _⟩ => rfl | ⟨1, _⟩ => rfl | ⟨2, _⟩ => rfl)
  have e2 : idx_main_v1 (ridx_main_v3 (ix3 b u h) d) = ix2 (hi d) h :=
    funext fun a => Fin.ext (by match a with | ⟨0, _⟩ => rfl | ⟨1, _⟩ => rfl)
  rw [e1, e2]

/-- What tanh is applied to, at an entry: encoder row `t` plus decoder row `u` of batch entry `b`, plus the bias. -/
theorem pre_apply (b : Fin 8) (t : Fin 256) (u : Fin 64) (h : Fin 1024) :
    val_main_v11 (F := Ideal) x0 x1 x2 x3 (ix4 b t u h)
      = (encProj x0 x2 (ix3 b t h) + decProj x1 x2 (ix3 b u h)) + x3 (ix1 h) := by
  rw [val_main_v11_apply, val_main_v8_apply, val_main_v6_apply, val_main_v4_apply, val_main_v7_apply, val_main_v5_apply,
    val_main_v10_apply, val_main_v9_apply]
  have e1 : idx_main_v4 (idx_main_v6 (ix4 b t u h)) = ix3 b t h :=
    funext fun a => Fin.ext (by match a with | ⟨0, _⟩ => rfl | ⟨1, _⟩ => rfl | ⟨2, _⟩ => rfl)
  have e2 : idx_main_v5 (idx_main_v7 (ix4 b t u h)) = ix3 b u h :=
    funext fun a => Fin.ext (by match a with | ⟨0, _⟩ => rfl | ⟨1, _⟩ => rfl | ⟨2, _⟩ => rfl)
  have e3 : idx_main_v9 (idx_main_v10 (ix4 b t u h)) = ix1 h :=
    funext fun a => Fin.ext (by match a with | ⟨0, _⟩ => rfl)
  rw [e1, e2, e3, enc_apply, dec_apply]
  rfl

/-- The reference's result is the joint network of its arguments. -/
theorem ref_eq_net : val_main_v16 (F := Ideal) x0 x1 x2 x3 x4 x5 = net x0 x1 x2 x3 x4 x5 := by
  funext i
  obtain ⟨b, t, u, o, rfl⟩ : ∃ (b : Fin 8) (t : Fin 256) (u : Fin 64) (o : Fin 128), i = ix4 b t u o :=
    ⟨i 0, i 1, i 2, i 3, eq_ix4 i⟩
  rw [val_main_v16_apply, val_main_v13_apply, val_main_v15_apply, val_main_v14_apply]
  have e1 : ∀ h : Fin 1024, lidx_main_v13 (ix4 b t u o) h = ix4 b t u h := fun h =>
    funext fun a => Fin.ext (by match a with | ⟨0, _⟩ => rfl | ⟨1, _⟩ => rfl | ⟨2, _⟩ => rfl | ⟨3, _⟩ => rfl)
  have e2 : ∀ h : Fin 1024, ridx_main_v13 (ix4 b t u o) h = ix2 h o := fun h =>
    funext fun a => Fin.ext (by match a with | ⟨0, _⟩ => rfl | ⟨1, _⟩ => rfl)
  have e3 : idx_main_v14 (idx_main_v15 (ix4 b t u o)) = ix1 o :=
    funext fun a => Fin.ext (by match a with | ⟨0, _⟩ => rfl)
  rw [e3]
  unfold net
  rw [joint_apply]
  unfold jointAt
  refine congrArg₂ (· + ·) (Finset.sum_congr rfl fun h _ => ?_) rfl
  rw [e1 h, e2 h, val_main_v12_apply, pre_apply]
  rfl

end Cert.ReferenceIdeal.RefValue

end
-- ==== Proof.lean ====
/-
  A transducer's joint network, computed by three kernel launches, against the same network written as five host
  operations (two projections, an outer sum with a bias, tanh, a contraction with a bias).

  The kernel program projects the encoder and the decoder state by the two halves of the first weight matrix in two
  launches (256 rows at a grid point, operands rounded to a shorter float format on the way into the product), and in a
  third launch, at each (batch entry, block of 32 encoder rows), adds every encoder row to every decoder row and to the
  bias, applies tanh, multiplies by the second weight matrix and adds the second bias. Over the extended reals a change
  of float format is the identity and a product accumulated into zero is the plain sum of products, so each launch's
  output is one whole-array function of what it reads: a row of a product depends on one row of its left operand, and
  an entry of the joint network on one encoder row and one decoder row. Composed through the host stretches (slices of
  the weight matrix, merges and splits of leading axes, biases laid out as rows) the result is
      out (b, t, u, o) = (Σ_h tanh ((E (b, t, h) + D (b, u, h)) + b1 h) · W2 (h, o)) + b2 o
  with E and D the two projections, and the reference's composed host term is the same function entry by entry: the
  two sides add and multiply in the same order, so no law beyond re-indexing the sums is needed and the precondition is
  not used.

  The idealization rewrote nothing, so its soundness claim is `True`; the three frames are the generated ones (the
  reference's is its generated run with the result dropped).
-/
import proofs.«129630_j14001593385645_1_alg».proof.Defs
import proofs.«129630_j14001593385645_1_alg».proof.Proof.Gen.Kernel
import proofs.«129630_j14001593385645_1_alg».proof.Proof.Gen.Kernel.Skeleton
import proofs.«129630_j14001593385645_1_alg».proof.Proof.Gen.Kernel.Launch
import proofs.«129630_j14001593385645_1_alg».proof.Proof.Gen.Kernel.Points
import proofs.«129630_j14001593385645_1_alg».proof.Proof.Gen.Kernel.Frame
import proofs.«129630_j14001593385645_1_alg».proof.Proof.Gen.KernelIdeal
import proofs.«129630_j14001593385645_1_alg».proof.Proof.Gen.KernelIdeal.Skeleton
import proofs.«129630_j14001593385645_1_alg».proof.Proof.Gen.KernelIdeal.Launch
import proofs.«129630_j14001593385645_1_alg».proof.Proof.Gen.KernelIdeal.Points
import proofs.«129630_j14001593385645_1_alg».proof.Proof.Gen.KernelIdeal.Frame
import proofs.«129630_j14001593385645_1_alg».proof.Proof.Gen.ReferenceIdeal
import proofs.«129630_j14001593385645_1_alg».proof.Proof.Gen.Pre_finite_inputs
import proofs.«129630_j14001593385645_1_alg».proof.Proof.Gen.ReferenceIdeal.Run
import proofs.«129630_j14001593385645_1_alg».proof.Proof.Gen.ReferenceIdeal.Read
import proofs.«129630_j14001593385645_1_alg».proof.Proof.KernelRun
import proofs.«129630_j14001593385645_1_alg».proof.Proof.Chain
import proofs.«129630_j14001593385645_1_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the joint network of the six arguments in their result buffer: the kernel program by the
    thread of its three launches, the reference by its composed host term read entry by entry. -/
theorem algebraic : Cert.algebraic_KernelIdeal_ReferenceIdeal := by
  intro m ρ m' ρ' _ hagree
  refine ⟨fun c => Cert.Joint.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Chain.result_eq m ρ c), (h c).2⟩)
      (Cert.KernelIdeal.Whole.run_named (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v16_eq, Cert.ReferenceIdeal.RefValue.ref_eq_net,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
